-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S1600000 : Shape := ⟨1, ![1600000]⟩
abbrev S200000 : Shape := ⟨1, ![200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1x32 .f32) (main_arg19 : FVec F S1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S1x32 .f32 := Host.absf main_arg18
  let main_cst_34 : FVec F S_ .f32 := constant S_ .f32 0x7F800000#32
  let main_v90 : FVec F S1x32 .f32 := broadcastInDim S1x32 ![] bcast_S_S1x32 main_cst_34
  let main_v91 : IVec S1x32 1 := cmpf .olt main_v89 main_v90
  let main_c_35 : IVec S_ 1 := constantI S_ 1 1#1
  let main_v92 : IVec S_ 1 := (fun x v => Host.reduce IntOp.andi x v reducesTo_S1x32_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S128x128 .f32) (main_arg15 : FVec F S128 .f32) (main_arg16 : FVec F S32x128 .f32) (main_arg17 : FVec F S32 .f32) (main_arg18 : FVec F S1x32 .f32) (main_arg19 : FVec F S1 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S32x128 .f32 := Host.absf main_arg16
  let main_cst_30 : FVec F S_ .f32 := constant S_ .f32 0x7F800000#32
  let main_v80 : FVec F S32x128 .f32 := broadcastInDim S32x128 ![] bcast_S_S32x128 main_cst_30
  let main_v81 : IVec S32x128 1 := cmpf .olt main_v79 main_v80
  let main_c_31 : IVec S_ 1 := constantI S_ 1 1#1
  let main_v82 : IVec S_ 1 := (fun x v => Host.reduce IntOp.andi x v reducesTo_S32x128_S_d0_1 h_S_) main_v81 main_c_31
  let main_v83 : IVec S_ 1 := andi main_v78 main_v82
  let main_v84 : FVec F S32 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S128x128 .f32) (main_arg12 : FVec F S128 .f32) (main_arg13 : FVec F S128x128 .f32) (main_arg14 : FVec F S128x128 .f32) (main_arg15 : FVec F S128 .f32) (main_arg16 : FVec F S32x128 .f32) (main_arg17 : FVec F S32 .f32) (main_arg18 : FVec F S1x32 .f32) (main_arg19 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_v63 main_v67

def fn_part2 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S32x128 .f32) (main_arg17 : FVec F S32 .f32) (main_arg18 : FVec F S1x32 .f32) (main_arg19 : FVec F S1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S32x128 .f32) (main_arg17 : FVec F S32 .f32) (main_arg18 : FVec F S1x32 .f32) (main_arg19 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S100000x128 .f32) (main_arg1 : FVec F S20000x128 .f32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S32x128 .f32) (main_arg17 : FVec F S32 .f32) (main_arg18 : FVec F S1x32 .f32) (main_arg19 : FVec F S1 .f32) (main_arg20 : IVec S1600000 32) (main_arg21 : IVec S1600000 32) (main_arg22 : IVec S1600000 32) (main_arg23 : IVec S1600000 32) (main_arg24 : IVec S200000 32) (main_arg25 : IVec S200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S1600000 : Shape := ⟨1, ![1600000]⟩
abbrev S200000 : Shape := ⟨1, ![200000]⟩
abbrev S_ : Shape := ⟨0, ![]⟩
abbrev S1600000x1 : Shape := ⟨2, ![1600000, 1]⟩
abbrev S20000x1 : Shape := ⟨2, ![20000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S200000x1 : Shape := ⟨2, ![200000, 1]⟩
abbrev S200000x128 : Shape := ⟨2, ![200000, 128]⟩
abbrev S100x1x2000 : Shape := ⟨3, ![100, 1, 2000]⟩
abbrev S2000x128 : Shape := ⟨2, ![2000, 128]⟩
abbrev S1x1x2000 : Shape := ⟨3, ![1, 1, 2000]⟩
abbrev S128x32 : Shape := ⟨2, ![128, 32]⟩
abbrev S2000x32 : Shape := ⟨2, ![2000, 32]⟩
abbrev S32x1 : Shape := ⟨2, ![32, 1]⟩
abbrev S2000x1 : Shape := ⟨2, ![2000, 1]⟩
abbrev S1x1 : Shape := ⟨2, ![1, 1]⟩
abbrev S1x2000 : Shape := ⟨2, ![1, 2000]⟩

abbrev nBuf : Space → Nat
  | .hbm => 128
  | .vmem => 56
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S32x128, .f32⟩
  | .hbm, ⟨17, _⟩ => ⟨S32, .f32⟩
  | .hbm, ⟨18, _⟩ => ⟨S1x32, .f32⟩
  | .hbm, ⟨19, _⟩ => ⟨S1, .f32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S200000, .i32⟩
  | .hbm, ⟨25, _⟩ => ⟨S200000, .i32⟩
  | .hbm, ⟨26, _⟩ => ⟨S_, .f32⟩
  | .hbm, ⟨27, _⟩ => ⟨S1600000x1, .f32⟩
  | .hbm, ⟨28, _⟩ => ⟨S_, .f32⟩
  | .hbm, ⟨29, _⟩ => ⟨S20000x1, .f32⟩
  | .hbm, ⟨30, _⟩ => ⟨S1600000x1, .i32⟩
  | .hbm, ⟨31, _⟩ => ⟨S20000x1, .f32⟩
  | .hbm, ⟨32, _⟩ => ⟨S_, .f32⟩
  | .hbm, ⟨33, _⟩ => ⟨S20000x1, .f32⟩
  | .hbm, ⟨34, _⟩ => ⟨S20000x1, .f32⟩
  | .hbm, ⟨35, _⟩ => ⟨S_, .f32⟩
  | .hbm, ⟨36, _⟩ => ⟨S20000x1, .f32⟩
  | .hbm, ⟨37, _⟩ => ⟨S20000x1, .f32⟩
  | .hbm, ⟨38, _⟩ => ⟨S_, .f32⟩
  | .hbm, ⟨39, _⟩ => ⟨S1600000x1, .f32⟩
  | .hbm, ⟨40, _⟩ => ⟨S_, .f32⟩
  | .hbm, ⟨41, _⟩ => ⟨S100000x1, .f32⟩
  | .hbm, ⟨42, _⟩ => ⟨S1600000x1, .i32⟩
  | .hbm, ⟨43, _⟩ => ⟨S100000x1, .f32⟩
  | .hbm, ⟨44, _⟩ => ⟨S_, .f32⟩
  | .hbm, ⟨45, _⟩ => ⟨S100000x1, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S20000x128, .f32⟩
  | .hbm, ⟨61, _⟩ => ⟨S1600000x1, .i32⟩
  | .hbm, ⟨62, _⟩ => ⟨S20000x128, .f32⟩
  | .hbm, ⟨63, _⟩ => ⟨S20000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S_, .f32⟩
  | .hbm, ⟨88, _⟩ => ⟨S20000x128, .f32⟩
  | .hbm, ⟨89, _⟩ => ⟨S1600000x1, .i32⟩
  | .hbm, ⟨90, _⟩ => ⟨S20000x128, .f32⟩
  | .hbm, ⟨91, _⟩ => ⟨S20000x128, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x128, .f32⟩
  | .hbm, ⟨101, _⟩ => ⟨S_, .f32⟩
  | .hbm, ⟨102, _⟩ => ⟨S100000x128, .f32⟩
  | .hbm, ⟨103, _⟩ => ⟨S1600000x1, .i32⟩
  | .hbm, ⟨104, _⟩ => ⟨S100000x128, .f32⟩
  | .hbm, ⟨105, _⟩ => ⟨S100000x128, .f32⟩
  | .hbm, ⟨106, _⟩ => ⟨S100000x128, .bf16⟩
  | .hbm, ⟨107, _⟩ => ⟨S20000x128, .bf16⟩
  | .hbm, ⟨108, _⟩ => ⟨S_, .i32⟩
  | .hbm, ⟨109, _⟩ => ⟨S200000, .i32⟩
  | .hbm, ⟨110, _⟩ => ⟨S200000, .i1⟩
  | .hbm, ⟨111, _⟩ => ⟨S_, .i32⟩
  | .hbm, ⟨112, _⟩ => ⟨S200000, .i32⟩
  | .hbm, ⟨113, _⟩ => ⟨S200000, .i32⟩
  | .hbm, ⟨114, _⟩ => ⟨S200000, .i32⟩
  | .hbm, ⟨115, _⟩ => ⟨S200000x1, .i32⟩
  | .hbm, ⟨116, _⟩ => ⟨S200000x128, .bf16⟩
  | .hbm, ⟨117, _⟩ => ⟨S_, .i32⟩
  | .hbm, ⟨118, _⟩ => ⟨S200000, .i32⟩
  | .hbm, ⟨119, _⟩ => ⟨S200000, .i1⟩
  | .hbm, ⟨120, _⟩ => ⟨S_, .i32⟩
  | .hbm, ⟨121, _⟩ => ⟨S200000, .i32⟩
  | .hbm, ⟨122, _⟩ => ⟨S200000, .i32⟩
  | .hbm, ⟨123, _⟩ => ⟨S200000, .i32⟩
  | .hbm, ⟨124, _⟩ => ⟨S200000x1, .i32⟩
  | .hbm, ⟨125, _⟩ => ⟨S200000x128, .bf16⟩
  | .hbm, ⟨126, _⟩ => ⟨S100x1x2000, .f32⟩
  | .hbm, ⟨127, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S128, .f32⟩
  | .local _ .vmem, ⟨41, _⟩ => ⟨S128x128, .f32⟩
  | .local _ .vmem, ⟨42, _⟩ => ⟨S5000x128, .f32⟩
  | .local _ .vmem, ⟨43, _⟩ => ⟨S5000x128, .f32⟩
  | .local _ .vmem, ⟨44, _⟩ => ⟨S2000x128, .bf16⟩
  | .local _ .vmem, ⟨45, _⟩ => ⟨S2000x128, .bf16⟩
  | .local _ .vmem, ⟨46, _⟩ => ⟨S2000x128, .bf16⟩
  | .local _ .vmem, ⟨47, _⟩ => ⟨S2000x128, .bf16⟩
  | .local _ .vmem, ⟨48, _⟩ => ⟨S128x128, .f32⟩
  | .local _ .vmem, ⟨49, _⟩ => ⟨S128, .f32⟩
  | .local _ .vmem, ⟨50, _⟩ => ⟨S32x128, .f32⟩
  | .local _ .vmem, ⟨51, _⟩ => ⟨S32, .f32⟩
  | .local _ .vmem, ⟨52, _⟩ => ⟨S1x32, .f32⟩
  | .local _ .vmem, ⟨53, _⟩ => ⟨S1, .f32⟩
  | .local _ .vmem, ⟨54, _⟩ => ⟨S1x1x2000, .f32⟩
  | .local _ .vmem, ⟨55, _⟩ => ⟨S1x1x2000, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_cst_3 : Ref sig .tc := ⟨.hbm, 38, rfl⟩
abbrev main_v8 : Ref sig .tc := ⟨.hbm, 39, rfl⟩
abbrev main_cst_4 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_5 : Ref sig .tc := ⟨.hbm, 44, rfl⟩
abbrev main_v12 : Ref sig .tc := ⟨.hbm, 45, rfl⟩
abbrev main_v13 : Ref sig .tc := ⟨.hbm, 46, rfl⟩
abbrev main_cst_6 : Ref sig .tc := ⟨.hbm, 47, rfl⟩
abbrev main_v14 : Ref sig .tc := ⟨.hbm, 48, rfl⟩
abbrev main_v15 : Ref sig .tc := ⟨.hbm, 49, rfl⟩
abbrev main_c : Ref sig .tc := ⟨.hbm, 50, rfl⟩
abbrev main_v16 : Ref sig .tc := ⟨.hbm, 51, rfl⟩
abbrev main_v17 : Ref sig .tc := ⟨.hbm, 52, rfl⟩
abbrev main_c_7 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_8 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c_9 : Ref sig .tc := ⟨.hbm, 64, rfl⟩
abbrev main_v27 : Ref sig .tc := ⟨.hbm, 65, rfl⟩
abbrev main_v28 : Ref sig .tc := ⟨.hbm, 66, rfl⟩
abbrev main_c_10 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_11 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_c_12 : Ref sig .tc := ⟨.hbm, 78, rfl⟩
abbrev main_v38 : Ref sig .tc := ⟨.hbm, 79, rfl⟩
abbrev main_v39 : Ref sig .tc := ⟨.hbm, 80, rfl⟩
abbrev main_c_13 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_14 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_c_15 : Ref sig .tc := ⟨.hbm, 92, rfl⟩
abbrev main_v49 : Ref sig .tc := ⟨.hbm, 93, rfl⟩
abbrev main_v50 : Ref sig .tc := ⟨.hbm, 94, rfl⟩
abbrev main_c_16 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_17 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_c_18 : Ref sig .tc := ⟨.hbm, 108, rfl⟩
abbrev main_v62 : Ref sig .tc := ⟨.hbm, 109, rfl⟩
abbrev main_v63 : Ref sig .tc := ⟨.hbm, 110, rfl⟩
abbrev main_c_19 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_20 : Ref sig .tc := ⟨.hbm, 117, rfl⟩
abbrev main_v69 : Ref sig .tc := ⟨.hbm, 118, rfl⟩
abbrev main_v70 : Ref sig .tc := ⟨.hbm, 119, rfl⟩
abbrev main_c_21 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg8_0 : Ref sig .tc := ⟨.vmem, 54, rfl⟩
abbrev cc4_stg8_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem8_0 : DmaSem sig := 54
abbrev cc4_sem8_1 : DmaSem sig := 55

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S2000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S1x1x2000 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  bcast_S_S1600000x1 : S_.BroadcastsInDim S1600000x1 (![] : Fin 0 → Fin S1600000x1.rank)
  bcast_S_S20000x1 : S_.BroadcastsInDim S20000x1 (![] : Fin 0 → Fin S20000x1.rank)
  bcast_S1600000_S1600000x1_0 : S1600000.BroadcastsInDim S1600000x1 (![0] : Fin 1 → Fin S1600000x1.rank)
  bcast_S_S100000x1 : S_.BroadcastsInDim S100000x1 (![] : Fin 0 → Fin S100000x1.rank)
  bcast_S_S1600000 : S_.BroadcastsInDim S1600000 (![] : Fin 0 → Fin S1600000.rank)
  bcast_S_S20000x128 : S_.BroadcastsInDim S20000x128 (![] : Fin 0 → Fin S20000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S100000x128 : S_.BroadcastsInDim S100000x128 (![] : Fin 0 → Fin S100000x128.rank)
  bcast_S_S200000 : S_.BroadcastsInDim S200000 (![] : Fin 0 → Fin S200000.rank)
  bcast_S200000_S200000x1_0 : S200000.BroadcastsInDim S200000x1 (![0] : Fin 1 → Fin S200000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S32x128_S32x128_0_0 : ∀ a, (![0, 0] : Fin 2 → Nat) a + S32x128.size a ≤ S32x128.size a
  h_S32x128 : 0 < S32x128.numel
  transposes_S32x128_p1_0_S128x32 : S32x128.Transposes [1, 0] S128x32
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S1x32_S1x32_0_0 : ∀ a, (![0, 0] : Fin 2 → Nat) a + S1x32.size a ≤ S1x32.size a
  h_S1x32 : 0 < S1x32.numel
  transposes_S1x32_p1_0_S32x1 : S1x32.Transposes [1, 0] S32x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  transposes_S2000x1_p1_0_S1x2000 : S2000x1.Transposes [1, 0] S1x2000
  shapeCasts_S1x2000_S1x1x2000 : S1x2000.ShapeCasts S1x1x2000
  inb_S1x1x2000_S1x1x2000_0_0_0 : ∀ a, (![0, 0, 0] : Fin 3 → Nat) a + S1x1x2000.size a ≤ S1x1x2000.size a
  h_S1x1x2000 : 0 < S1x1x2000.numel
  shapeCasts_S100x1x2000_S200000 : S100x1x2000.ShapeCasts S200000
  scatter_S20000x1_S1600000x1_S1600000x1_1_0_0_1_wf : ScatterDims.WF S20000x1 S1600000x1 S1600000x1 [1] [0] [0] 1
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  dot_S5000x128_S128x128_S5000x128_1_0_0_1_n_n_wf : DotDims.WF S5000x128 S128x128 S5000x128 [1] [0] [0] [1] [] []
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S200000x1_S200000x128_1_0_n_n_0_1_1128_wf : GatherDims.WF S100000x128 S200000x1 S200000x128 [1] [0] [] [0] [] 1 ![1, 128]
  gather_S20000x128_S200000x1_S200000x128_1_0_n_n_0_1_1128_wf : GatherDims.WF S20000x128 S200000x1 S200000x128 [1] [0] [] [0] [] 1 ![1, 128]
  dot_S2000x128_S128x128_S2000x128_1_0_0_1_n_n_wf : DotDims.WF S2000x128 S128x128 S2000x128 [1] [0] [0] [1] [] []
  dot_S2000x128_S128x32_S2000x32_1_0_0_1_n_n_wf : DotDims.WF S2000x128 S128x32 S2000x32 [1] [0] [0] [1] [] []
  dot_S2000x32_S32x1_S2000x1_1_0_0_1_n_n_wf : DotDims.WF S2000x32 S32x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S20000x128.size a
  hwx0_0 : ∀ i : grid0.Coords, EltTy.bits .f32 = 32 ∨ (Rect.block (s := S20000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S20000x1.size a
  hwx0_1 : ∀ i : grid0.Coords, EltTy.bits .f32 = 32 ∨ (Rect.block (s := S20000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S20000x128.size a
  hwx0_2 : ∀ i : grid0.Coords, EltTy.bits .f32 = 32 ∨ (Rect.block (s := S20000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S20000x128.size a
  hwx0_6 : ∀ i : grid0.Coords, EltTy.bits .f32 = 32 ∨ (Rect.block (s := S20000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S20000x128.size a
  hwx2_0 : ∀ i : grid2.Coords, EltTy.bits .f32 = 32 ∨ (Rect.block (s := S20000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S20000x1.size a
  hwx2_1 : ∀ i : grid2.Coords, EltTy.bits .f32 = 32 ∨ (Rect.block (s := S20000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S20000x128.size a
  hwx2_2 : ∀ i : grid2.Coords, EltTy.bits .f32 = 32 ∨ (Rect.block (s := S20000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S20000x128.size a
  hwx2_6 : ∀ i : grid2.Coords, EltTy.bits .f32 = 32 ∨ (Rect.block (s := S20000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S200000x128.size a
  hwx4_0 : ∀ i : grid4.Coords, EltTy.bits .bf16 = 32 ∨ (Rect.block (s := S200000x128) S2000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S200000x128.size a
  hwx4_1 : ∀ i : grid4.Coords, EltTy.bits .bf16 = 32 ∨ (Rect.block (s := S200000x128) S2000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x128.size a ≤ S32x128.size a
  hwx4_4 : ∀ i : grid4.Coords, EltTy.bits .f32 = 32 ∨ (Rect.block (s := S32x128) S32x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32.size a ≤ S32.size a
  hwx4_5 : ∀ i : grid4.Coords, EltTy.bits .f32 = 32 ∨ (Rect.block (s := S32) S32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1.size a ≤ S1.size a
  hwx4_7 : ∀ i : grid4.Coords, EltTy.bits .f32 = 32 ∨ (Rect.block (s := S1) S1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x1x2000.size a ≤ S100x1x2000.size a
  hwx4_8 : ∀ i : grid4.Coords, EltTy.bits .f32 = 32 ∨ (Rect.block (s := S100x1x2000) S1x1x2000.size (cc4_transform_8 i) (hinb4_8 i)).WholeWords (EltTy.packing .f32)

variable [Facts₀]

def scatter_S20000x1_S1600000x1_S1600000x1_1_0_0_1 : ScatterDims S20000x1 S1600000x1 S1600000x1 where
  updateWindowDims := [1]
  insertedWindowDims := [0]
  scatterDimsToOperandDims := [0]
  indexVectorDim := 1
  wf := scatter_S20000x1_S1600000x1_S1600000x1_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v68) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S32x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg17) S32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg18) S1x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg19) S1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v76) S1x1x2000.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S1600000 : Shape := ⟨1, ![1600000]⟩
abbrev S200000 : Shape := ⟨1, ![200000]⟩
abbrev S_ : Shape := ⟨0, ![]⟩
abbrev S1600000x1 : Shape := ⟨2, ![1600000, 1]⟩
abbrev S1600000x128 : Shape := ⟨2, ![1600000, 128]⟩
abbrev S20000x1 : Shape := ⟨2, ![20000, 1]⟩
abbrev S1x128 : Shape := ⟨2, ![1, 128]⟩
abbrev S100000x1 : Shape := ⟨2, ![100000, 1]⟩
abbrev S200000x1 : Shape := ⟨2, ![200000, 1]⟩
abbrev S200000x128 : Shape := ⟨2, ![200000, 128]⟩
abbrev S128x32 : Shape := ⟨2, ![128, 32]⟩
abbrev S200000x32 : Shape := ⟨2, ![200000, 32]⟩
abbrev S32x1 : Shape := ⟨2, ![32, 1]⟩
abbrev S1x1 : Shape := ⟨2, ![1, 1]⟩

abbrev nBuf : Space → Nat
  | .hbm => 201
  | .vmem => 0
  | .smem => 0
  | _ => 0

abbrev hbmTy0_0 (i : Nat) : BufTy := match i % 128 with
  | 0 => ⟨S100000x128, .f32⟩
  | 1 => ⟨S20000x128, .f32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S32x128, .f32⟩
  | 17 => ⟨S32, .f32⟩
  | 18 => ⟨S1x32, .f32⟩
  | 19 => ⟨S1, .f32⟩
  | 20 => ⟨S1600000, .i32⟩
  | 21 => ⟨S1600000, .i32⟩
  | 22 => ⟨S1600000, .i32⟩
  | 23 => ⟨S1600000, .i32⟩
  | 24 => ⟨S200000, .i32⟩
  | 25 => ⟨S200000, .i32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S_, .f32⟩
  | 36 => ⟨S20000x128, .f32⟩
  | 37 => ⟨S1600000x1, .i32⟩
  | 38 => ⟨S20000x128, .f32⟩
  | 39 => ⟨S_, .f32⟩
  | 40 => ⟨S1600000x1, .f32⟩
  | 41 => ⟨S_, .f32⟩
  | 42 => ⟨S20000x1, .f32⟩
  | 43 => ⟨S1600000x1, .i32⟩
  | 44 => ⟨S20000x1, .f32⟩
  | 45 => ⟨S_, .f32⟩
  | 46 => ⟨S20000x1, .f32⟩
  | 47 => ⟨S20000x1, .f32⟩
  | 48 => ⟨S20000x128, .f32⟩
  | 49 => ⟨S20000x128, .f32⟩
  | 50 => ⟨S128x128, .f32⟩
  | 51 => ⟨S20000x128, .f32⟩
  | 52 => ⟨S1x128, .f32⟩
  | 53 => ⟨S20000x128, .f32⟩
  | 54 => ⟨S20000x128, .f32⟩
  | 55 => ⟨S128x128, .f32⟩
  | 56 => ⟨S20000x128, .f32⟩
  | 57 => ⟨S20000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S_, .f32⟩
  | 72 => ⟨S1600000x1, .f32⟩
  | 73 => ⟨S_, .f32⟩
  | 74 => ⟨S100000x1, .f32⟩
  | 75 => ⟨S1600000x1, .i32⟩
  | 76 => ⟨S100000x1, .f32⟩
  | 77 => ⟨S_, .f32⟩
  | 78 => ⟨S100000x1, .f32⟩
  | 79 => ⟨S100000x1, .f32⟩
  | 80 => ⟨S100000x128, .f32⟩
  | 81 => ⟨S100000x128, .f32⟩
  | 82 => ⟨S128x128, .f32⟩
  | 83 => ⟨S100000x128, .f32⟩
  | 84 => ⟨S1x128, .f32⟩
  | 85 => ⟨S100000x128, .f32⟩
  | 86 => ⟨S100000x128, .f32⟩
  | 87 => ⟨S128x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .f32⟩
  | 94 => ⟨S20000x128, .f32⟩
  | 95 => ⟨S20000x128, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S_, .f32⟩
  | 106 => ⟨S20000x128, .f32⟩
  | 107 => ⟨S1600000x1, .i32⟩
  | 108 => ⟨S20000x128, .f32⟩
  | 109 => ⟨S_, .f32⟩
  | 110 => ⟨S1600000x1, .f32⟩
  | 111 => ⟨S_, .f32⟩
  | 112 => ⟨S20000x1, .f32⟩
  | 113 => ⟨S1600000x1, .i32⟩
  | 114 => ⟨S20000x1, .f32⟩
  | 115 => ⟨S_, .f32⟩
  | 116 => ⟨S20000x1, .f32⟩
  | 117 => ⟨S20000x1, .f32⟩
  | 118 => ⟨S20000x128, .f32⟩
  | 119 => ⟨S20000x128, .f32⟩
  | 120 => ⟨S128x128, .f32⟩
  | 121 => ⟨S20000x128, .f32⟩
  | 122 => ⟨S1x128, .f32⟩
  | 123 => ⟨S20000x128, .f32⟩
  | 124 => ⟨S20000x128, .f32⟩
  | 125 => ⟨S128x128, .f32⟩
  | 126 => ⟨S20000x128, .f32⟩
  | 127 => ⟨S20000x128, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S_, .f32⟩
  | 14 => ⟨S1600000x1, .f32⟩
  | 15 => ⟨S_, .f32⟩
  | 16 => ⟨S100000x1, .f32⟩
  | 17 => ⟨S1600000x1, .i32⟩
  | 18 => ⟨S100000x1, .f32⟩
  | 19 => ⟨S_, .f32⟩
  | 20 => ⟨S100000x1, .f32⟩
  | 21 => ⟨S100000x1, .f32⟩
  | 22 => ⟨S100000x128, .f32⟩
  | 23 => ⟨S100000x128, .f32⟩
  | 24 => ⟨S128x128, .f32⟩
  | 25 => ⟨S100000x128, .f32⟩
  | 26 => ⟨S1x128, .f32⟩
  | 27 => ⟨S100000x128, .f32⟩
  | 28 => ⟨S100000x128, .f32⟩
  | 29 => ⟨S128x128, .f32⟩
  | 30 => ⟨S100000x128, .f32⟩
  | 31 => ⟨S100000x128, .f32⟩
  | 32 => ⟨S_, .i32⟩
  | 33 => ⟨S200000, .i32⟩
  | 34 => ⟨S200000, .i1⟩
  | 35 => ⟨S_, .i32⟩
  | 36 => ⟨S200000, .i32⟩
  | 37 => ⟨S200000, .i32⟩
  | 38 => ⟨S200000, .i32⟩
  | 39 => ⟨S200000x1, .i32⟩
  | 40 => ⟨S200000x128, .f32⟩
  | 41 => ⟨S_, .i32⟩
  | 42 => ⟨S200000, .i32⟩
  | 43 => ⟨S200000, .i1⟩
  | 44 => ⟨S_, .i32⟩
  | 45 => ⟨S200000, .i32⟩
  | 46 => ⟨S200000, .i32⟩
  | 47 => ⟨S200000, .i32⟩
  | 48 => ⟨S200000x1, .i32⟩
  | 49 => ⟨S200000x128, .f32⟩
  | 50 => ⟨S200000x128, .f32⟩
  | 51 => ⟨S128x128, .f32⟩
  | 52 => ⟨S200000x128, .f32⟩
  | 53 => ⟨S1x128, .f32⟩
  | 54 => ⟨S200000x128, .f32⟩
  | 55 => ⟨S200000x128, .f32⟩
  | 56 => ⟨S_, .f32⟩
  | 57 => ⟨S200000x128, .f32⟩
  | 58 => ⟨S200000x128, .f32⟩
  | 59 => ⟨S128x32, .f32⟩
  | 60 => ⟨S200000x32, .f32⟩
  | 61 => ⟨S1x32, .f32⟩
  | 62 => ⟨S200000x32, .f32⟩
  | 63 => ⟨S200000x32, .f32⟩
  | 64 => ⟨S_, .f32⟩
  | 65 => ⟨S200000x32, .f32⟩
  | 66 => ⟨S200000x32, .f32⟩
  | 67 => ⟨S32x1, .f32⟩
  | 68 => ⟨S200000x1, .f32⟩
  | 69 => ⟨S1x1, .f32⟩
  | 70 => ⟨S200000x1, .f32⟩
  | 71 => ⟨S200000x1, .f32⟩
  | 72 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_4 : Ref sig .tc := ⟨.hbm, 58, rfl⟩
abbrev main_v26 : Ref sig .tc := ⟨.hbm, 59, rfl⟩
abbrev main_v27 : Ref sig .tc := ⟨.hbm, 60, rfl⟩
abbrev main_c_5 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_7 : Ref sig .tc := ⟨.hbm, 71, rfl⟩
abbrev main_v36 : Ref sig .tc := ⟨.hbm, 72, rfl⟩
abbrev main_cst_8 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_9 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_call0_cst : Ref sig .tc := ⟨.hbm, 90, rfl⟩
abbrev main_call0_v0 : Ref sig .tc := ⟨.hbm, 91, rfl⟩
abbrev main_v52 : Ref sig .tc := ⟨.hbm, 92, rfl⟩
abbrev main_call1_cst : Ref sig .tc := ⟨.hbm, 93, rfl⟩
abbrev main_call1_v0 : Ref sig .tc := ⟨.hbm, 94, rfl⟩
abbrev main_v53 : Ref sig .tc := ⟨.hbm, 95, rfl⟩
abbrev main_c_10 : Ref sig .tc := ⟨.hbm, 96, rfl⟩
abbrev main_v54 : Ref sig .tc := ⟨.hbm, 97, rfl⟩
abbrev main_v55 : Ref sig .tc := ⟨.hbm, 98, rfl⟩
abbrev main_c_11 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_12 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_13 : Ref sig .tc := ⟨.hbm, 109, rfl⟩
abbrev main_v64 : Ref sig .tc := ⟨.hbm, 110, rfl⟩
abbrev main_cst_14 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_15 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_c_16 : Ref sig .tc := ⟨.hbm, 128, rfl⟩
abbrev main_v80 : Ref sig .tc := ⟨.hbm, 129, rfl⟩
abbrev main_v81 : Ref sig .tc := ⟨.hbm, 130, rfl⟩
abbrev main_c_17 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_18 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_19 : Ref sig .tc := ⟨.hbm, 141, rfl⟩
abbrev main_v90 : Ref sig .tc := ⟨.hbm, 142, rfl⟩
abbrev main_cst_20 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_21 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_c_22 : Ref sig .tc := ⟨.hbm, 160, rfl⟩
abbrev main_v106 : Ref sig .tc := ⟨.hbm, 161, rfl⟩
abbrev main_v107 : Ref sig .tc := ⟨.hbm, 162, rfl⟩
abbrev main_c_23 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_c_24 : Ref sig .tc := ⟨.hbm, 169, rfl⟩
abbrev main_v113 : Ref sig .tc := ⟨.hbm, 170, rfl⟩
abbrev main_v114 : Ref sig .tc := ⟨.hbm, 171, rfl⟩
abbrev main_c_25 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_call2_cst : Ref sig .tc := ⟨.hbm, 184, rfl⟩
abbrev main_call2_v0 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_call3_cst : Ref sig .tc := ⟨.hbm, 192, rfl⟩
abbrev main_call3_v0 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S20000x128 : S_.BroadcastsInDim S20000x128 (![] : Fin 0 → Fin S20000x128.rank)
  bcast_S_S1600000x1 : S_.BroadcastsInDim S1600000x1 (![] : Fin 0 → Fin S1600000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  transposes_S128x128_S128x128_1_0 : S128x128.Transposes [1, 0] S128x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  transposes_S32x128_S128x32_1_0 : S32x128.Transposes [1, 0] S128x32
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  transposes_S1x32_S32x1_1_0 : S1x32.Transposes [1, 0] S32x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  scatter_S20000x1_S1600000x1_S1600000x1_1_0_0_1_wf : ScatterDims.WF S20000x1 S1600000x1 S1600000x1 [1] [0] [0] 1
  dot_S20000x128_S128x128_S20000x128_1_0_0_1_n_n_wf : DotDims.WF S20000x128 S128x128 S20000x128 [1] [0] [0] [1] [] []
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  gather_S20000x128_S200000x1_S200000x128_1_0_n_n_0_1_1128_wf : GatherDims.WF S20000x128 S200000x1 S200000x128 [1] [0] [] [0] [] 1 ![1, 128]
  dot_S200000x128_S128x128_S200000x128_1_0_0_1_n_n_wf : DotDims.WF S200000x128 S128x128 S200000x128 [1] [0] [0] [1] [] []
  dot_S200000x128_S128x32_S200000x32_1_0_0_1_n_n_wf : DotDims.WF S200000x128 S128x32 S200000x32 [1] [0] [0] [1] [] []
  dot_S200000x32_S32x1_S200000x1_1_0_0_1_n_n_wf : DotDims.WF S200000x32 S32x1 S200000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def scatter_S20000x1_S1600000x1_S1600000x1_1_0_0_1 : ScatterDims S20000x1 S1600000x1 S1600000x1 where
  updateWindowDims := [1]
  insertedWindowDims := [0]
  scatterDimsToOperandDims := [0]
  indexVectorDim := 1
  wf := scatter_S20000x1_S1600000x1_S1600000x1_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x32_S200000x32_1_0_0_1_n_n : DotDims S200000x128 S128x32 S200000x32 where
  lhsContracting := [1]
  rhsContracting := [0]
  lhsNonContracting := [0]
  rhsNonContracting := [1]
  lhsBatch := []
  rhsBatch := []
  wf := dot_S200000x128_S128x32_S200000x32_1_0_0_1_n_n_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf

class Facts : Prop extends Facts₀ where

variable [Facts]
-- ==== Proof.KRun.lean ====
/-
  The idealized kernel's run with its result named.

  Every weakly fair execution of @main terminates without a fault, and in the final state the result buffer holds what
  the last boundary of the run's fold through @main holds there (`Gen.W11`: the host stretches applied to, and the five
  calls' write-backs folded into, the launch memory), while every argument array is as launched. This is the launch of
  the program's segments that its frame uses, with the result buffer read off the final thread state as well.
-/
import proofs.«104036_j27625229648544_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v77) = W11 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v77 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c),
       (h c _ (mem_uc main_arg21 (by decide))).trans (W11_main_arg21 m ρ c),
       (h c _ (mem_uc main_arg22 (by decide))).trans (W11_main_arg22 m ρ c),
       (h c _ (mem_uc main_arg23 (by decide))).trans (W11_main_arg23 m ρ c),
       (h c _ (mem_uc main_arg24 (by decide))).trans (W11_main_arg24 m ρ c),
       (h c _ (mem_uc main_arg25 (by decide))).trans (W11_main_arg25 m ρ c)⟩)

end Cert.KernelIdeal.KRun

end
-- ==== Proof.Spec.lean ====
/-
  The mathematics both programs compute, row by row, on the extended reals.

  One GraphConv combine of a destination node: with `tot` the sum of the incoming messages, `x` the node's own
  features and `Wr`, `Wq`, `br` the layer's parameters, column `j` of the new features is
      (Σ_k a_k · Wr[j,k]) + br[j] + Σ_k x_k · Wq[j,k],
  where the mean message `a_k` is written in two ways: the product `tot_k · inv` with a reciprocal count `inv`
  computed once (`gcMul`), or the quotient `tot_k / cnt` by the clamped count itself (`gcDiv`). With
  `inv = 1 / max(n, 1)` and `cnt = max(n, 1)` the two agree on every extended real (`gcMul_eq_gcDiv`): the clamped
  count is at least one, so it is not zero, and then both `1 / cnt` and `tot_k / cnt` are products with `cnt⁻¹`.

  The link decoder of one labelled pair: `e = xv − xh`, two dense layers with a rectifier, and a last dense layer to
  one number (`decVal`).
-/
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic

/-- The combine with the mean message as `tot · inv`. -/
def gcMul (tot : Fin 128 → EReal) (inv : EReal) (x : Fin 128 → EReal) (Wr : Fin 128 → Fin 128 → EReal)
    (br : Fin 128 → EReal) (Wq : Fin 128 → Fin 128 → EReal) (j : Fin 128) : EReal :=
  ((∑ k : Fin 128, (tot k * inv) * Wr j k) + br j) + ∑ k : Fin 128, x k * Wq j k

/-- The combine with the mean message as `tot / cnt`. -/
def gcDiv (tot : Fin 128 → EReal) (cnt : EReal) (x : Fin 128 → EReal) (Wr : Fin 128 → Fin 128 → EReal)
    (br : Fin 128 → EReal) (Wq : Fin 128 → Fin 128 → EReal) (j : Fin 128) : EReal :=
  ((∑ k : Fin 128, Ideal.div (tot k) cnt * Wr j k) + br j) + ∑ k : Fin 128, x k * Wq j k

/-- A count clamped below by one is not zero. -/
theorem max_one_ne_zero (n : EReal) : max n 1 ≠ 0 :=
  ne_of_gt (lt_of_lt_of_le zero_lt_one (le_max_right n 1))

/-- Multiplying by the reciprocal of a clamped count is dividing by it, at the infinities too. -/
theorem mul_recip_clamped (t n : EReal) : t * Ideal.div 1 (max n 1) = Ideal.div t (max n 1) := by
  unfold Ideal.div
  rw [if_neg (max_one_ne_zero n), if_neg (max_one_ne_zero n), one_mul]

/-- The two spellings of the combine agree when the reciprocal is that of the clamped count. -/
theorem gcMul_eq_gcDiv (tot : Fin 128 → EReal) (n : EReal) (x : Fin 128 → EReal) (Wr : Fin 128 → Fin 128 → EReal)
    (br : Fin 128 → EReal) (Wq : Fin 128 → Fin 128 → EReal) (j : Fin 128) :
    gcMul tot (Ideal.div 1 (max n 1)) x Wr br Wq j = gcDiv tot (max n 1) x Wr br Wq j := by
  unfold gcMul gcDiv
  simp only [mul_recip_clamped]

/-- The decoder of one pair: `relu(relu((xv − xh) W1ᵀ + b1) W2ᵀ + b2) Wpᵀ + bp`. -/
def decVal (xv xh : Fin 128 → EReal) (W1 : Fin 128 → Fin 128 → EReal) (b1 : Fin 128 → EReal)
    (W2 : Fin 32 → Fin 128 → EReal) (b2 : Fin 32 → EReal) (Wp : Fin 32 → EReal) (bp : EReal) : EReal :=
  (∑ k2 : Fin 32,
      max ((∑ k1 : Fin 128,
          max ((∑ k : Fin 128, (xv k - xh k) * W1 k1 k) + b1 k1) 0 * W2 k2 k1) + b2 k2) 0 * Wp k2) + bp

end Cert.Spec

end
-- ==== Proof.GcBody.lean ====
/-
  The GraphConv kernel's body, read at one entry of its output block.

  The body multiplies the block of summed messages by the column of reciprocal counts, takes the product with the
  transposed relation weights on the matrix unit (accumulating from zero), adds the bias row, adds the product of the
  node block with the transposed root weights, and in the first layer clamps at zero. Rounding to bf16 is the
  identity on the extended reals, a transpose swaps the two coordinates, and a product accumulated from zero is the
  plain sum over the contracted coordinate, so entry (p, q) of the stored block is the row-level combine `Spec.gcMul`
  of row p of the two data blocks, entry p of the reciprocal column and the three parameter arrays, at column q.
-/
import proofs.«104036_j27625229648544_2_alg».proof.Proof.Gen.KernelIdeal.Skeleton
import proofs.«104036_j27625229648544_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- A column broadcast along the lanes: entry (p, q) is the column's entry p. -/
theorem col_bcast_apply {α : Type} (v : S5000x1.Idx → α) (p : Fin 5000) (q : Fin 128) :
    broadcastTo S5000x128 v broadcasts_S5000x1_S5000x128 (ix2 p q) = v (ix2 p 0) :=
  broadcastTo_apply v broadcasts_S5000x1_S5000x128 (ix2 p q) (ix2 p 0) (fun a => match a with
    | ⟨0, _⟩ => by show p.val = if (5000 : Nat) = 1 then 0 else p.val; rw [if_neg (by decide)]
    | ⟨1, _⟩ => by show (0 : Nat) = if (1 : Nat) = 1 then 0 else q.val; rw [if_pos rfl])

/-- A bias vector laid as one row and broadcast down the rows: entry (p, q) is the vector's entry q. -/
theorem row_bcast_apply {α : Type} (v : S128.Idx → α) (p : Fin 5000) (q : Fin 128) :
    broadcastTo S5000x128 (shapeCast S1x128 v shapeCasts_S128_S1x128) broadcasts_S1x128_S5000x128 (ix2 p q) = v (ix1 q) := by
  rw [broadcastTo_apply (shapeCast S1x128 v shapeCasts_S128_S1x128) broadcasts_S1x128_S5000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])]
  rw [shapeCast_addUnit_apply ![128] v shapeCasts_S128_S1x128 (ix2 0 q)]
  exact congrArg v (funext fun a => match a with | ⟨0, _⟩ => rfl)

/-- A block times transposed weights, accumulated from zero: entry (p, q) is Σ_k lhs[p,k] · w[q,k]. -/
theorem matmul_wT_apply {φ₁ φ₂ : FTy} (lhs : FVec Ideal S5000x128 φ₁) (w : FVec Ideal S128x128 φ₂) (p : Fin 5000) (q : Fin 128) :
    matmul dot_S5000x128_S128x128_S5000x128_1_0_0_1_n_n none lhs (transpose S128x128 [1, 0] w transposes_S128x128_p1_0_S128x128)
      (constant S5000x128 .f32 0x00000000#32) (ix2 p q) = ∑ k : Fin 128, lhs (ix2 p k) * w (ix2 q k) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ =>
        show (dot_S5000x128_S128x128_S5000x128_1_0_0_1_n_n.lhsIdx (ix2 p q) _ 0).val = p.val
        unfold DotDims.lhsIdx
        rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
        rfl
      | ⟨1, _⟩ => exact (dot_S5000x128_S128x128_S5000x128_1_0_0_1_n_n.lhsIdx_val_of_single rfl (ix2 p q) _).trans hk)
  have er : (dot_S5000x128_S128x128_S5000x128_1_0_0_1_n_n.rhsIdx (ix2 p q) ((contrEquiv1 dot_S5000x128_S128x128_S5000x128_1_0_0_1_n_n 128 rfl rfl).symm k) : S128x128.Idx) = ix2 k q :=
    funext fun a => Fin.ext (by
      match a with
      | ⟨0, _⟩ => exact (dot_S5000x128_S128x128_S5000x128_1_0_0_1_n_n.rhsIdx_val_of_single rfl (ix2 p q) _).trans hk
      | ⟨1, _⟩ =>
        show (dot_S5000x128_S128x128_S5000x128_1_0_0_1_n_n.rhsIdx (ix2 p q) _ 1).val = q.val
        unfold DotDims.rhsIdx
        rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
        rfl)
  rw [el, er]
  exact congrArg (lhs (ix2 p k) * ·) (transpose_apply [1, 0] w transposes_S128x128_p1_0_S128x128 (ix2 k q) (ix2 q k) (fun b => match b with
    | ⟨0, _⟩ => rfl
    | ⟨1, _⟩ => rfl))

/-- The first layer's stored block at (p, q): the combine, clamped at zero. -/
theorem k0_pay1_apply (v0 : Vec Ideal S5000x128 .f32) (v2 : Vec Ideal S5000x1 .f32) (v7 : Vec Ideal S5000x128 .f32)
    (v9 v11 : Vec Ideal S128x128 .f32) (v15 : Vec Ideal S128 .f32) (p : Fin 5000) (q : Fin 128) :
    k0_pay1 v0 v2 v7 v9 v11 v15 (ix2 p q)
      = max (Spec.gcMul (fun k => v0 (ix2 p k)) (v2 (ix2 p 0)) (fun k => v7 (ix2 p k)) (fun j k => v9 (ix2 j k))
          (fun j => v15 (ix1 j)) (fun j k => v11 (ix2 j k)) q) 0 := by
  unfold k0_pay1
  dsimp only
  rw [maximumf_apply, addf_apply, addf_apply, matmul_wT_apply, matmul_wT_apply, row_bcast_apply]
  unfold Spec.gcMul
  simp only [truncf_apply, mulf_apply, shapeCast_self, col_bcast_apply, broadcast_apply]
  rw [show (Scalar.ofBits (F := Ideal) .f32 0x00000000#32 : EReal) = 0 from Ideal.ofBits_zero_f32]

/-- The second layer's stored block at (p, q): the combine, not clamped. -/
theorem k2_pay1_apply (v0 : Vec Ideal S5000x128 .f32) (v2 : Vec Ideal S5000x1 .f32) (v7 : Vec Ideal S5000x128 .f32)
    (v10 v12 : Vec Ideal S128x128 .f32) (v16 : Vec Ideal S128 .f32) (p : Fin 5000) (q : Fin 128) :
    k2_pay1 v0 v2 v7 v10 v12 v16 (ix2 p q)
      = Spec.gcMul (fun k => v0 (ix2 p k)) (v2 (ix2 p 0)) (fun k => v7 (ix2 p k)) (fun j k => v10 (ix2 j k))
          (fun j => v16 (ix1 j)) (fun j k => v12 (ix2 j k)) q := by
  unfold k2_pay1
  dsimp only
  rw [addf_apply, addf_apply, matmul_wT_apply, matmul_wT_apply, row_bcast_apply]
  unfold Spec.gcMul
  simp only [truncf_apply, mulf_apply, shapeCast_self, col_bcast_apply]

/-- The four GraphConv calls run two bodies: the first layer's two calls one, the second layer's two the other. -/
theorem k1_pay1_eq : @k1_pay1 Ideal _ = @k0_pay1 Ideal _ := rfl
theorem k3_pay1_eq : @k3_pay1 Ideal _ = @k2_pay1 Ideal _ := rfl

end Cert.KernelIdeal.Body

end
-- ==== Proof.Layers.lean ====
/-
  The layers as functions of whole arrays, index by index, over the extended reals.

  `gcMulArr` / `gcDivArr`: row r, column j of a GraphConv combine over N destination nodes is the row-level combine
  of row r of the summed messages and of the node features, entry r of the count column and the layer's parameters.
  `reluArr` clamps every entry at zero. `decArr`: entry r of the decoder's output is the decoder of row r of the two
  gathered feature arrays.
-/
import proofs.«104036_j27625229648544_2_alg».proof.Proof.Spec

noncomputable section

namespace Cert.Spec

open Idealize.ShloMosaic Idealize.ShloMosaic.ValueIdx

/-- Arrays of extended reals of rank two and one, over literal extents. -/
abbrev A2 (a b : Nat) : Type := (⟨2, ![a, b]⟩ : Shape).Idx → EReal
abbrev A1 (a : Nat) : Type := (⟨1, ![a]⟩ : Shape).Idx → EReal

/-- The combine over N nodes with the reciprocal-count column. -/
def gcMulArr {N : Nat} (tot : A2 N 128) (inv : A2 N 1) (x : A2 N 128) (Wr : A2 128 128) (br : A1 128) (Wq : A2 128 128) : A2 N 128 :=
  fun i => gcMul (fun k => tot (ix2 (i 0) k)) (inv (ix2 (i 0) 0)) (fun k => x (ix2 (i 0) k)) (fun j k => Wr (ix2 j k))
    (fun j => br (ix1 j)) (fun j k => Wq (ix2 j k)) (i 1)

/-- The combine over N nodes with the clamped-count column. -/
def gcDivArr {N : Nat} (tot : A2 N 128) (cnt : A2 N 1) (x : A2 N 128) (Wr : A2 128 128) (br : A1 128) (Wq : A2 128 128) : A2 N 128 :=
  fun i => gcDiv (fun k => tot (ix2 (i 0) k)) (cnt (ix2 (i 0) 0)) (fun k => x (ix2 (i 0) k)) (fun j k => Wr (ix2 j k))
    (fun j => br (ix1 j)) (fun j k => Wq (ix2 j k)) (i 1)

/-- Every entry clamped at zero. -/
def reluArr {s : Shape} (a : s.Idx → EReal) : s.Idx → EReal := fun i => max (a i) 0

/-- The decoder over L labelled pairs. -/
def decArr {L : Nat} (xv xh : A2 L 128) (W1 : A2 128 128) (b1 : A1 128) (W2 : A2 32 128) (b2 : A1 32) (Wp : A2 1 32) (bp : A1 1) : A1 L :=
  fun i => decVal (fun k => xv (ix2 (i 0) k)) (fun k => xh (ix2 (i 0) k)) (fun j k => W1 (ix2 j k)) (fun j => b1 (ix1 j))
    (fun j k => W2 (ix2 j k)) (fun j => b2 (ix1 j)) (fun j => Wp (ix2 0 j)) (bp (ix1 0))

/-- With the reciprocal column that of the clamped counts, the two spellings of the combine are one array. -/
theorem gcMulArr_eq_gcDivArr {N : Nat} (tot : A2 N 128) (n : A2 N 1) (x : A2 N 128) (Wr : A2 128 128) (br : A1 128) (Wq : A2 128 128) :
    gcMulArr tot (fun i => Ideal.div 1 (max (n i) 1)) x Wr br Wq = gcDivArr tot (fun i => max (n i) 1) x Wr br Wq :=
  funext fun i => gcMul_eq_gcDiv _ _ _ _ _ _ _

end Cert.Spec

end
-- ==== Proof.GcRegion0.lean ====
/-
  GraphConv call 0 as one function of the arrays it is given.

  The call walks the 20000 destination rows in blocks of 5000. At grid point t it is handed rows 5000t … 5000t + 4999
  of the summed messages, of the reciprocal-count column and of the node features, and the three parameter arrays
  whole; it writes the same rows of its output. Row p of the block is row 5000t + p of the array, every row lies in
  exactly the block of its quotient by 5000, and the body's entry (p, q) is the row-level combine (the body lemma).
  So after the call the output array is the whole-array combine, clamped at zero, of the six arrays as the call found them.
-/
import proofs.«104036_j27625229648544_2_alg».proof.Proof.Gen.KernelIdeal.Frame
import proofs.«104036_j27625229648544_2_alg».proof.Proof.GcBody
import proofs.«104036_j27625229648544_2_alg».proof.Proof.Layers

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The call's output as a function of its six arrays. -/
def G (c : Dev nD) : S20000x128.Idx → EReal :=
  Spec.reluArr (Spec.gcMulArr (N := 20000) (V c main_v25) (V c main_v7) (V c main_arg1) (V c main_arg2) (V c main_arg3) (V c main_arg4))

/-- The printed index maps over the grid: the three row-blocked inputs and the output sit at block (t, 0), the
    parameters at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of block t is row 5000t + p of the array. -/
def row (t : Fin cfg0.N) (p : Fin 5000) : Fin 20000 :=
  ⟨5000 * t.val + p.val, by have hN : cfg0.N = 4 := N_0; have := t.isLt; have := p.isLt; omega⟩

theorem blk0_apply (c : Dev nD) (t : Fin cfg0.N) (p : Fin 5000) (k : Fin 128) :
    (iblk0 V c 0 t : Vec Ideal S5000x128 .f32) (ix2 p k) = (V c main_v25 : S20000x128.Idx → EReal) (ix2 (row t p) k) := by
  obtain ⟨e0, e1, -⟩ := idx_facts t
  show (V c main_v25 : S20000x128.Idx → EReal) (((cfg0.win 0).blk t).view.emb (ix2 p k)) = _
  refine congrArg (V c main_v25 : S20000x128.Idx → EReal) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

theorem blk1_apply (c : Dev nD) (t : Fin cfg0.N) (p : Fin 5000) :
    (iblk0 V c 1 t : Vec Ideal S5000x1 .f32) (ix2 p 0) = (V c main_v7 : S20000x1.Idx → EReal) (ix2 (row t p) 0) := by
  obtain ⟨-, -, e0, e1, -⟩ := idx_facts t
  show (V c main_v7 : S20000x1.Idx → EReal) (((cfg0.win 1).blk t).view.emb (ix2 p 0)) = _
  refine congrArg (V c main_v7 : S20000x1.Idx → EReal) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 1 + 1 * 0 = 0; rw [e1]

theorem blk2_apply (c : Dev nD) (t : Fin cfg0.N) (p : Fin 5000) (k : Fin 128) :
    (iblk0 V c 2 t : Vec Ideal S5000x128 .f32) (ix2 p k) = (V c main_arg1 : S20000x128.Idx → EReal) (ix2 (row t p) k) := by
  obtain ⟨-, -, -, -, e0, e1, -⟩ := idx_facts t
  show (V c main_arg1 : S20000x128.Idx → EReal) (((cfg0.win 2).blk t).view.emb (ix2 p k)) = _
  refine congrArg (V c main_arg1 : S20000x128.Idx → EReal) (funext fun a => Fin.ext ?_)
  match a with
  | ⟨0, _⟩ => show win0_2.index t (0 : Fin 2) * 5000 + 1 * p.val = 5000 * t.val + p.val; rw [e0]; omega
  | ⟨1, _⟩ => show win0_2.index t (1 : Fin 2) * 128 + 1 * k.val = k.val; rw [e1]; omega

theorem blk3_apply (c : Dev nD) (t : Fin cfg0.N) (j k : Fin 128) :
    (iblk0 V c 3 t : Vec Ideal S128x128 .f32) (ix2 j k) = (V c main_arg2 : S128x128.Idx → EReal) (ix2 j k) := by
  obtain ⟨-, -, -, -, -, -, e0, e1, -⟩ := idx_facts t
  show (V c main_arg2 : S128x128.Idx → EReal) (((cfg0.win 3).blk t).view.emb (ix2 j k)) = _
  refine congrArg (V c main_arg2 : S128x128.Idx → EReal) (funext fun a => Fin.ext ?_)
  match a with
  | ⟨0, _⟩ => show win0_3.index t (0 : Fin 2) * 128 + 1 * j.val = j.val; rw [e0]; omega
  | ⟨1, _⟩ => show win0_3.index t (1 : Fin 2) * 128 + 1 * k.val = k.val; rw [e1]; omega

theorem blk4_apply (c : Dev nD) (t : Fin cfg0.N) (j : Fin 128) :
    (iblk0 V c 4 t : Vec Ideal S128 .f32) (ix1 j) = (V c main_arg3 : S128.Idx → EReal) (ix1 j) := by
  obtain ⟨-, -, -, -, -, -, -, -, e0, -⟩ := idx_facts t
  show (V c main_arg3 : S128.Idx → EReal) (((cfg0.win 4).blk t).view.emb (ix1 j)) = _
  refine congrArg (V c main_arg3 : S128.Idx → EReal) (funext fun a => Fin.ext ?_)
  match a with
  | ⟨0, _⟩ => show win0_4.index t (0 : Fin 1) * 128 + 1 * j.val = j.val; rw [e0]; omega

theorem blk5_apply (c : Dev nD) (t : Fin cfg0.N) (j k : Fin 128) :
    (iblk0 V c 5 t : Vec Ideal S128x128 .f32) (ix2 j k) = (V c main_arg4 : S128x128.Idx → EReal) (ix2 j k) := by
  obtain ⟨-, -, -, -, -, -, -, -, -, e0, e1, -⟩ := idx_facts t
  show (V c main_arg4 : S128x128.Idx → EReal) (((cfg0.win 5).blk t).view.emb (ix2 j k)) = _
  refine congrArg (V c main_arg4 : S128x128.Idx → EReal) (funext fun a => Fin.ext ?_)
  match a with
  | ⟨0, _⟩ => show win0_5.index t (0 : Fin 2) * 128 + 1 * j.val = j.val; rw [e0]; omega
  | ⟨1, _⟩ => show win0_5.index t (1 : Fin 2) * 128 + 1 * k.val = k.val; rw [e1]; omega

/-- Entry (p, q) of the output's block t is entry (5000t + p, q) of the array. -/
theorem emb6_apply (t : Fin cfg0.N) (p : Fin 5000) (q : Fin 128) :
    (((cfg0.win 6).blk t).view.emb (ix2 p q) : S20000x128.Idx) = ix2 (row t p) q := by
  obtain ⟨-, -, -, -, -, -, -, -, -, -, -, e0, e1⟩ := idx_facts t
  refine funext fun a => Fin.ext ?_
  match a with
  | ⟨0, _⟩ => show win0_6.index t (0 : Fin 2) * 5000 + 1 * p.val = 5000 * t.val + p.val; rw [e0]; omega
  | ⟨1, _⟩ => show win0_6.index t (1 : Fin 2) * 128 + 1 * q.val = q.val; rw [e1]; omega

/-- What point t writes back is block t of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 5 t) (iblk0 V c 4 t) (ix2 p q)
    = G V c (((cfg0.win 6).blk t).view.emb (ix2 p q))
  rw [Body.k0_pay1_apply, emb6_apply]
  unfold G Spec.reluArr Spec.gcMulArr
  simp only [blk0_apply, blk1_apply, blk2_apply, blk3_apply, blk4_apply, blk5_apply]

/-- An index is in block t iff each coordinate is in the block's range on its axis. -/
theorem mem_blk (t : Fin cfg0.N) (i : S20000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26).slice (win0_6.rect t)).set ↔ _
  rw [View.set_slice_whole, Rect.mem_set_unit]
  exact Iff.rfl

/-- Every row lies in the block of its quotient by 5000. -/
theorem cover (i : S20000x128.Idx) : ∃ t : Fin cfg0.N, (cfg0.win 6).flush t = true ∧ i ∈ ((cfg0.win 6).blk t).view.set := by
  have hi0 : (i 0).val < 20000 := (i 0).isLt
  have hi1 : (i 1).val < 128 := (i 1).isLt
  have hN : cfg0.N = 4 := N_0
  refine ⟨⟨(i 0).val / 5000, by omega⟩, flush0_6 _, ?_⟩
  obtain ⟨-, -, -, -, -, -, -, -, -, -, -, e0, e1⟩ := idx_facts ⟨(i 0).val / 5000, by omega⟩
  rw [mem_blk]
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e1]; omega

/-- The output array after the call. -/
theorem final (c : Dev nD) : (dat0 V c).arrAt 6 cfg0.N = G V c :=
  (dat0 V c).arrAt_eq_of_cover 6 (G V c) (fun t _ => flushed_eq V c t) (cover)

end Cert.KernelIdeal.Region0

end
-- ==== Proof.GcRegion1.lean ====
/-
  GraphConv call 1 as one function of the arrays it is given.

  The call walks the 100000 destination rows in blocks of 5000. At grid point t it is handed rows 5000t … 5000t + 4999
  of the summed messages, of the reciprocal-count column and of the node features, and the three parameter arrays
  whole; it writes the same rows of its output. Row p of the block is row 5000t + p of the array, every row lies in
  exactly the block of its quotient by 5000, and the body's entry (p, q) is the row-level combine (the body lemma).
  So after the call the output array is the whole-array combine, clamped at zero, of the six arrays as the call found them.
-/
import proofs.«104036_j27625229648544_2_alg».proof.Proof.Gen.KernelIdeal.Frame
import proofs.«104036_j27625229648544_2_alg».proof.Proof.GcBody
import proofs.«104036_j27625229648544_2_alg».proof.Proof.Layers

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The call's output as a function of its six arrays. -/
def G (c : Dev nD) : S100000x128.Idx → EReal :=
  Spec.reluArr (Spec.gcMulArr (N := 100000) (V c main_v36) (V c main_v15) (V c main_arg0) (V c main_arg5) (V c main_arg6) (V c main_arg7))

/-- The printed index maps over the grid: the three row-blocked inputs and the output sit at block (t, 0), the
    parameters at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of block t is row 5000t + p of the array. -/
def row (t : Fin cfg1.N) (p : Fin 5000) : Fin 100000 :=
  ⟨5000 * t.val + p.val, by have hN : cfg1.N = 20 := N_1; have := t.isLt; have := p.isLt; omega⟩

theorem blk0_apply (c : Dev nD) (t : Fin cfg1.N) (p : Fin 5000) (k : Fin 128) :
    (iblk1 V c 0 t : Vec Ideal S5000x128 .f32) (ix2 p k) = (V c main_v36 : S100000x128.Idx → EReal) (ix2 (row t p) k) := by
  obtain ⟨e0, e1, -⟩ := idx_facts t
  show (V c main_v36 : S100000x128.Idx → EReal) (((cfg1.win 0).blk t).view.emb (ix2 p k)) = _
  refine congrArg (V c main_v36 : S100000x128.Idx → EReal) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

theorem blk1_apply (c : Dev nD) (t : Fin cfg1.N) (p : Fin 5000) :
    (iblk1 V c 1 t : Vec Ideal S5000x1 .f32) (ix2 p 0) = (V c main_v15 : S100000x1.Idx → EReal) (ix2 (row t p) 0) := by
  obtain ⟨-, -, e0, e1, -⟩ := idx_facts t
  show (V c main_v15 : S100000x1.Idx → EReal) (((cfg1.win 1).blk t).view.emb (ix2 p 0)) = _
  refine congrArg (V c main_v15 : S100000x1.Idx → EReal) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 1 + 1 * 0 = 0; rw [e1]

theorem blk2_apply (c : Dev nD) (t : Fin cfg1.N) (p : Fin 5000) (k : Fin 128) :
    (iblk1 V c 2 t : Vec Ideal S5000x128 .f32) (ix2 p k) = (V c main_arg0 : S100000x128.Idx → EReal) (ix2 (row t p) k) := by
  obtain ⟨-, -, -, -, e0, e1, -⟩ := idx_facts t
  show (V c main_arg0 : S100000x128.Idx → EReal) (((cfg1.win 2).blk t).view.emb (ix2 p k)) = _
  refine congrArg (V c main_arg0 : S100000x128.Idx → EReal) (funext fun a => Fin.ext ?_)
  match a with
  | ⟨0, _⟩ => show win1_2.index t (0 : Fin 2) * 5000 + 1 * p.val = 5000 * t.val + p.val; rw [e0]; omega
  | ⟨1, _⟩ => show win1_2.index t (1 : Fin 2) * 128 + 1 * k.val = k.val; rw [e1]; omega

theorem blk3_apply (c : Dev nD) (t : Fin cfg1.N) (j k : Fin 128) :
    (iblk1 V c 3 t : Vec Ideal S128x128 .f32) (ix2 j k) = (V c main_arg5 : S128x128.Idx → EReal) (ix2 j k) := by
  obtain ⟨-, -, -, -, -, -, e0, e1, -⟩ := idx_facts t
  show (V c main_arg5 : S128x128.Idx → EReal) (((cfg1.win 3).blk t).view.emb (ix2 j k)) = _
  refine congrArg (V c main_arg5 : S128x128.Idx → EReal) (funext fun a => Fin.ext ?_)
  match a with
  | ⟨0, _⟩ => show win1_3.index t (0 : Fin 2) * 128 + 1 * j.val = j.val; rw [e0]; omega
  | ⟨1, _⟩ => show win1_3.index t (1 : Fin 2) * 128 + 1 * k.val = k.val; rw [e1]; omega

theorem blk4_apply (c : Dev nD) (t : Fin cfg1.N) (j : Fin 128) :
    (iblk1 V c 4 t : Vec Ideal S128 .f32) (ix1 j) = (V c main_arg6 : S128.Idx → EReal) (ix1 j) := by
  obtain ⟨-, -, -, -, -, -, -, -, e0, -⟩ := idx_facts t
  show (V c main_arg6 : S128.Idx → EReal) (((cfg1.win 4).blk t).view.emb (ix1 j)) = _
  refine congrArg (V c main_arg6 : S128.Idx → EReal) (funext fun a => Fin.ext ?_)
  match a with
  | ⟨0, _⟩ => show win1_4.index t (0 : Fin 1) * 128 + 1 * j.val = j.val; rw [e0]; omega

theorem blk5_apply (c : Dev nD) (t : Fin cfg1.N) (j k : Fin 128) :
    (iblk1 V c 5 t : Vec Ideal S128x128 .f32) (ix2 j k) = (V c main_arg7 : S128x128.Idx → EReal) (ix2 j k) := by
  obtain ⟨-, -, -, -, -, -, -, -, -, e0, e1, -⟩ := idx_facts t
  show (V c main_arg7 : S128x128.Idx → EReal) (((cfg1.win 5).blk t).view.emb (ix2 j k)) = _
  refine congrArg (V c main_arg7 : S128x128.Idx → EReal) (funext fun a => Fin.ext ?_)
  match a with
  | ⟨0, _⟩ => show win1_5.index t (0 : Fin 2) * 128 + 1 * j.val = j.val; rw [e0]; omega
  | ⟨1, _⟩ => show win1_5.index t (1 : Fin 2) * 128 + 1 * k.val = k.val; rw [e1]; omega

/-- Entry (p, q) of the output's block t is entry (5000t + p, q) of the array. -/
theorem emb6_apply (t : Fin cfg1.N) (p : Fin 5000) (q : Fin 128) :
    (((cfg1.win 6).blk t).view.emb (ix2 p q) : S100000x128.Idx) = ix2 (row t p) q := by
  obtain ⟨-, -, -, -, -, -, -, -, -, -, -, e0, e1⟩ := idx_facts t
  refine funext fun a => Fin.ext ?_
  match a with
  | ⟨0, _⟩ => show win1_6.index t (0 : Fin 2) * 5000 + 1 * p.val = 5000 * t.val + p.val; rw [e0]; omega
  | ⟨1, _⟩ => show win1_6.index t (1 : Fin 2) * 128 + 1 * q.val = q.val; rw [e1]; omega

/-- What point t writes back is block t of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 5 t) (iblk1 V c 4 t) (ix2 p q)
    = G V c (((cfg1.win 6).blk t).view.emb (ix2 p q))
  rw [Body.k1_pay1_eq, Body.k0_pay1_apply, emb6_apply]
  unfold G Spec.reluArr Spec.gcMulArr
  simp only [blk0_apply, blk1_apply, blk2_apply, blk3_apply, blk4_apply, blk5_apply]

/-- An index is in block t iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v37).slice (win1_6.rect t)).set ↔ _
  rw [View.set_slice_whole, Rect.mem_set_unit]
  exact Iff.rfl

/-- Every row lies in the block of its quotient by 5000. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  refine ⟨⟨(i 0).val / 5000, by omega⟩, flush1_6 _, ?_⟩
  obtain ⟨-, -, -, -, -, -, -, -, -, -, -, e0, e1⟩ := idx_facts ⟨(i 0).val / 5000, by omega⟩
  rw [mem_blk]
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 128 ≤ (i 1).val ∧ (i 1).val < win1_6.index _ (1 : Fin 2) * 128 + 128
    rw [e1]; omega

/-- The output array after the call. -/
theorem final (c : Dev nD) : (dat1 V c).arrAt 6 cfg1.N = G V c :=
  (dat1 V c).arrAt_eq_of_cover 6 (G V c) (fun t _ => flushed_eq V c t) (cover)

end Cert.KernelIdeal.Region1

end
-- ==== Proof.GcRegion2.lean ====
/-
  GraphConv call 2 as one function of the arrays it is given.

  The call walks the 20000 destination rows in blocks of 5000. At grid point t it is handed rows 5000t … 5000t + 4999
  of the summed messages, of the reciprocal-count column and of the node features, and the three parameter arrays
  whole; it writes the same rows of its output. Row p of the block is row 5000t + p of the array, every row lies in
  exactly the block of its quotient by 5000, and the body's entry (p, q) is the row-level combine (the body lemma).
  So after the call the output array is the whole-array combine of the six arrays as the call found them.
-/
import proofs.«104036_j27625229648544_2_alg».proof.Proof.Gen.KernelIdeal.Frame
import proofs.«104036_j27625229648544_2_alg».proof.Proof.GcBody
import proofs.«104036_j27625229648544_2_alg».proof.Proof.Layers

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The call's output as a function of its six arrays. -/
def G (c : Dev nD) : S20000x128.Idx → EReal :=
  Spec.gcMulArr (N := 20000) (V c main_v47) (V c main_v7) (V c main_v26) (V c main_arg8) (V c main_arg9) (V c main_arg10)

/-- The printed index maps over the grid: the three row-blocked inputs and the output sit at block (t, 0), the
    parameters at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of block t is row 5000t + p of the array. -/
def row (t : Fin cfg2.N) (p : Fin 5000) : Fin 20000 :=
  ⟨5000 * t.val + p.val, by have hN : cfg2.N = 4 := N_2; have := t.isLt; have := p.isLt; omega⟩

theorem blk0_apply (c : Dev nD) (t : Fin cfg2.N) (p : Fin 5000) (k : Fin 128) :
    (iblk2 V c 0 t : Vec Ideal S5000x128 .f32) (ix2 p k) = (V c main_v47 : S20000x128.Idx → EReal) (ix2 (row t p) k) := by
  obtain ⟨e0, e1, -⟩ := idx_facts t
  show (V c main_v47 : S20000x128.Idx → EReal) (((cfg2.win 0).blk t).view.emb (ix2 p k)) = _
  refine congrArg (V c main_v47 : S20000x128.Idx → EReal) (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

theorem blk1_apply (c : Dev nD) (t : Fin cfg2.N) (p : Fin 5000) :
    (iblk2 V c 1 t : Vec Ideal S5000x1 .f32) (ix2 p 0) = (V c main_v7 : S20000x1.Idx → EReal) (ix2 (row t p) 0) := by
  obtain ⟨-, -, e0, e1, -⟩ := idx_facts t
  show (V c main_v7 : S20000x1.Idx → EReal) (((cfg2.win 1).blk t).view.emb (ix2 p 0)) = _
  refine congrArg (V c main_v7 : S20000x1.Idx → EReal) (funext fun a => Fin.ext ?_)
  match a with
  | ⟨0, _⟩ => show win2_1.index t (0 : Fin 2) * 5000 + 1 * p.val = 5000 * t.val + p.val; rw [e0]; omega
  | ⟨1, _⟩ => show win2_1.index t (1 : Fin 2) * 1 + 1 * 0 = 0; rw [e1]

theorem blk2_apply (c : Dev nD) (t : Fin cfg2.N) (p : Fin 5000) (k : Fin 128) :
    (iblk2 V c 2 t : Vec Ideal S5000x128 .f32) (ix2 p k) = (V c main_v26 : S20000x128.Idx → EReal) (ix2 (row t p) k) := by
  obtain ⟨-, -, -, -, e0, e1, -⟩ := idx_facts t
  show (V c main_v26 : S20000x128.Idx → EReal) (((cfg2.win 2).blk t).view.emb (ix2 p k)) = _
  refine congrArg (V c main_v26 : S20000x128.Idx → EReal) (funext fun a => Fin.ext ?_)
  match a with
  | ⟨0, _⟩ => show win2_2.index t (0 : Fin 2) * 5000 + 1 * p.val = 5000 * t.val + p.val; rw [e0]; omega
  | ⟨1, _⟩ => show win2_2.index t (1 : Fin 2) * 128 + 1 * k.val = k.val; rw [e1]; omega

theorem blk3_apply (c : Dev nD) (t : Fin cfg2.N) (j k : Fin 128) :
    (iblk2 V c 3 t : Vec Ideal S128x128 .f32) (ix2 j k) = (V c main_arg8 : S128x128.Idx → EReal) (ix2 j k) := by
  obtain ⟨-, -, -, -, -, -, e0, e1, -⟩ := idx_facts t
  show (V c main_arg8 : S128x128.Idx → EReal) (((cfg2.win 3).blk t).view.emb (ix2 j k)) = _
  refine congrArg (V c main_arg8 : S128x128.Idx → EReal) (funext fun a => Fin.ext ?_)
  match a with
  | ⟨0, _⟩ => show win2_3.index t (0 : Fin 2) * 128 + 1 * j.val = j.val; rw [e0]; omega
  | ⟨1, _⟩ => show win2_3.index t (1 : Fin 2) * 128 + 1 * k.val = k.val; rw [e1]; omega

theorem blk4_apply (c : Dev nD) (t : Fin cfg2.N) (j : Fin 128) :
    (iblk2 V c 4 t : Vec Ideal S128 .f32) (ix1 j) = (V c main_arg9 : S128.Idx → EReal) (ix1 j) := by
  obtain ⟨-, -, -, -, -, -, -, -, e0, -⟩ := idx_facts t
  show (V c main_arg9 : S128.Idx → EReal) (((cfg2.win 4).blk t).view.emb (ix1 j)) = _
  refine congrArg (V c main_arg9 : S128.Idx → EReal) (funext fun a => Fin.ext ?_)
  match a with
  | ⟨0, _⟩ => show win2_4.index t (0 : Fin 1) * 128 + 1 * j.val = j.val; rw [e0]; omega

theorem blk5_apply (c : Dev nD) (t : Fin cfg2.N) (j k : Fin 128) :
    (iblk2 V c 5 t : Vec Ideal S128x128 .f32) (ix2 j k) = (V c main_arg10 : S128x128.Idx → EReal) (ix2 j k) := by
  obtain ⟨-, -, -, -, -, -, -, -, -, e0, e1, -⟩ := idx_facts t
  show (V c main_arg10 : S128x128.Idx → EReal) (((cfg2.win 5).blk t).view.emb (ix2 j k)) = _
  refine congrArg (V c main_arg10 : S128x128.Idx → EReal) (funext fun a => Fin.ext ?_)
  match a with
  | ⟨0, _⟩ => show win2_5.index t (0 : Fin 2) * 128 + 1 * j.val = j.val; rw [e0]; omega
  | ⟨1, _⟩ => show win2_5.index t (1 : Fin 2) * 128 + 1 * k.val = k.val; rw [e1]; omega

/-- Entry (p, q) of the output's block t is entry (5000t + p, q) of the array. -/
theorem emb6_apply (t : Fin cfg2.N) (p : Fin 5000) (q : Fin 128) :
    (((cfg2.win 6).blk t).view.emb (ix2 p q) : S20000x128.Idx) = ix2 (row t p) q := by
  obtain ⟨-, -, -, -, -, -, -, -, -, -, -, e0, e1⟩ := idx_facts t
  refine funext fun a => Fin.ext ?_
  match a with
  | ⟨0, _⟩ => show win2_6.index t (0 : Fin 2) * 5000 + 1 * p.val = 5000 * t.val + p.val; rw [e0]; omega
  | ⟨1, _⟩ => show win2_6.index t (1 : Fin 2) * 128 + 1 * q.val = q.val; rw [e1]; omega

/-- What point t writes back is block t of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S5000x1) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (iblk2 V c 5 t) (iblk2 V c 4 t) (ix2 p q)
    = G V c (((cfg2.win 6).blk t).view.emb (ix2 p q))
  rw [Body.k2_pay1_apply, emb6_apply]
  unfold G Spec.gcMulArr
  simp only [blk0_apply, blk1_apply, blk2_apply, blk3_apply, blk4_apply, blk5_apply]

/-- An index is in block t iff each coordinate is in the block's range on its axis. -/
theorem mem_blk (t : Fin cfg2.N) (i : S20000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v48).slice (win2_6.rect t)).set ↔ _
  rw [View.set_slice_whole, Rect.mem_set_unit]
  exact Iff.rfl

/-- Every row lies in the block of its quotient by 5000. -/
theorem cover (i : S20000x128.Idx) : ∃ t : Fin cfg2.N, (cfg2.win 6).flush t = true ∧ i ∈ ((cfg2.win 6).blk t).view.set := by
  have hi0 : (i 0).val < 20000 := (i 0).isLt
  have hi1 : (i 1).val < 128 := (i 1).isLt
  have hN : cfg2.N = 4 := N_2
  refine ⟨⟨(i 0).val / 5000, by omega⟩, flush2_6 _, ?_⟩
  obtain ⟨-, -, -, -, -, -, -, -, -, -, -, e0, e1⟩ := idx_facts ⟨(i 0).val / 5000, by omega⟩
  rw [mem_blk]
  intro a
  match a with
  | ⟨0, _⟩ =>
    show win2_6.index _ (0 : Fin 2) * 5000 ≤ (i 0).val ∧ (i 0).val < win2_6.index _ (0 : Fin 2) * 5000 + 5000
    rw [e0]; show (i 0).val / 5000 * 5000 ≤ (i 0).val ∧ (i 0).val < (i 0).val / 5000 * 5000 + 5000; omega
  | ⟨1, _⟩ =>
    show win2_6.index _ (1 : Fin 2) * 128 ≤ (i 1).val ∧ (i 1).val < win2_6.index _ (1 : Fin 2) * 128 + 128
    rw [e1]; omega

/-- The output array after the call. -/
theorem final (c : Dev nD) : (dat2 V c).arrAt 6 cfg2.N = G V c :=
  (dat2 V c).arrAt_eq_of_cover 6 (G V c) (fun t _ => flushed_eq V c t) (cover)

end Cert.KernelIdeal.Region2

end
-- ==== Proof.GcRegion3.lean ====
/-
  GraphConv call 3 as one function of the arrays it is given.

  The call walks the 100000 destination rows in blocks of 5000. At grid point t it is handed rows 5000t … 5000t + 4999
  of the summed messages, of the reciprocal-count column and of the node features, and the three parameter arrays
  whole; it writes the same rows of its output. Row p of the block is row 5000t + p of the array, every row lies in
  exactly the block of its quotient by 5000, and the body's entry (p, q) is the row-level combine (the body lemma).
  So after the call the output array is the whole-array combine of the six arrays as the call found them.
-/
import proofs.«104036_j27625229648544_2_alg».proof.Proof.Gen.KernelIdeal.Frame
import proofs.«104036_j27625229648544_2_alg».proof.Proof.GcBody
import proofs.«104036_j27625229648544_2_alg».proof.Proof.Layers

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The call's output as a function of its six arrays. -/
def G (c : Dev nD) : S100000x128.Idx → EReal :=
  Spec.gcMulArr (N := 100000) (V c main_v58) (V c main_v15) (V c main_v37) (V c main_arg11) (V c main_arg12) (V c main_arg13)

/-- The printed index maps over the grid: the three row-blocked inputs and the output sit at block (t, 0), the
    parameters at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of block t is row 5000t + p of the array. -/
def row (t : Fin cfg3.N) (p : Fin 5000) : Fin 100000 :=
  ⟨5000 * t.val + p.val, by have hN : cfg3.N = 20 := N_3; have := t.isLt; have := p.isLt; omega⟩

theorem blk0_apply (c : Dev nD) (t : Fin cfg3.N) (p : Fin 5000) (k : Fin 128) :
    (iblk3 V c 0 t : Vec Ideal S5000x128 .f32) (ix2 p k) = (V c main_v58 : S100000x128.Idx → EReal) (ix2 (row t p) k) := by
  obtain ⟨e0, e1, -⟩ := idx_facts t
  show (V c main_v58 : S100000x128.Idx → EReal) (((cfg3.win 0).blk t).view.emb (ix2 p k)) = _
  refine congrArg (V c main_v58 : S100000x128.Idx → EReal) (funext fun a => Fin.ext ?_)
  match a with
  | ⟨0, _⟩ => show win3_0.index t (0 : Fin 2) * 5000 + 1 * p.val = 5000 * t.val + p.val; rw [e0]; omega
  | ⟨1, _⟩ => show win3_0.index t (1 : Fin 2) * 128 + 1 * k.val = k.val; rw [e1]; omega

theorem blk1_apply (c : Dev nD) (t : Fin cfg3.N) (p : Fin 5000) :
    (iblk3 V c 1 t : Vec Ideal S5000x1 .f32) (ix2 p 0) = (V c main_v15 : S100000x1.Idx → EReal) (ix2 (row t p) 0) := by
  obtain ⟨-, -, e0, e1, -⟩ := idx_facts t
  show (V c main_v15 : S100000x1.Idx → EReal) (((cfg3.win 1).blk t).view.emb (ix2 p 0)) = _
  refine congrArg (V c main_v15 : S100000x1.Idx → EReal) (funext fun a => Fin.ext ?_)
  match a with
  | ⟨0, _⟩ => show win3_1.index t (0 : Fin 2) * 5000 + 1 * p.val = 5000 * t.val + p.val; rw [e0]; omega
  | ⟨1, _⟩ => show win3_1.index t (1 : Fin 2) * 1 + 1 * 0 = 0; rw [e1]

theorem blk2_apply (c : Dev nD) (t : Fin cfg3.N) (p : Fin 5000) (k : Fin 128) :
    (iblk3 V c 2 t : Vec Ideal S5000x128 .f32) (ix2 p k) = (V c main_v37 : S100000x128.Idx → EReal) (ix2 (row t p) k) := by
  obtain ⟨-, -, -, -, e0, e1, -⟩ := idx_facts t
  show (V c main_v37 : S100000x128.Idx → EReal) (((cfg3.win 2).blk t).view.emb (ix2 p k)) = _
  refine congrArg (V c main_v37 : S100000x128.Idx → EReal) (funext fun a => Fin.ext ?_)
  match a with
  | ⟨0, _⟩ => show win3_2.index t (0 : Fin 2) * 5000 + 1 * p.val = 5000 * t.val + p.val; rw [e0]; omega
  | ⟨1, _⟩ => show win3_2.index t (1 : Fin 2) * 128 + 1 * k.val = k.val; rw [e1]; omega

theorem blk3_apply (c : Dev nD) (t : Fin cfg3.N) (j k : Fin 128) :
    (iblk3 V c 3 t : Vec Ideal S128x128 .f32) (ix2 j k) = (V c main_arg11 : S128x128.Idx → EReal) (ix2 j k) := by
  obtain ⟨-, -, -, -, -, -, e0, e1, -⟩ := idx_facts t
  show (V c main_arg11 : S128x128.Idx → EReal) (((cfg3.win 3).blk t).view.emb (ix2 j k)) = _
  refine congrArg (V c main_arg11 : S128x128.Idx → EReal) (funext fun a => Fin.ext ?_)
  match a with
  | ⟨0, _⟩ => show win3_3.index t (0 : Fin 2) * 128 + 1 * j.val = j.val; rw [e0]; omega
  | ⟨1, _⟩ => show win3_3.index t (1 : Fin 2) * 128 + 1 * k.val = k.val; rw [e1]; omega

theorem blk4_apply (c : Dev nD) (t : Fin cfg3.N) (j : Fin 128) :
    (iblk3 V c 4 t : Vec Ideal S128 .f32) (ix1 j) = (V c main_arg12 : S128.Idx → EReal) (ix1 j) := by
  obtain ⟨-, -, -, -, -, -, -, -, e0, -⟩ := idx_facts t
  show (V c main_arg12 : S128.Idx → EReal) (((cfg3.win 4).blk t).view.emb (ix1 j)) = _
  refine congrArg (V c main_arg12 : S128.Idx → EReal) (funext fun a => Fin.ext ?_)
  match a with
  | ⟨0, _⟩ => show win3_4.index t (0 : Fin 1) * 128 + 1 * j.val = j.val; rw [e0]; omega

theorem blk5_apply (c : Dev nD) (t : Fin cfg3.N) (j k : Fin 128) :
    (iblk3 V c 5 t : Vec Ideal S128x128 .f32) (ix2 j k) = (V c main_arg13 : S128x128.Idx → EReal) (ix2 j k) := by
  obtain ⟨-, -, -, -, -, -, -, -, -, e0, e1, -⟩ := idx_facts t
  show (V c main_arg13 : S128x128.Idx → EReal) (((cfg3.win 5).blk t).view.emb (ix2 j k)) = _
  refine congrArg (V c main_arg13 : S128x128.Idx → EReal) (funext fun a => Fin.ext ?_)
  match a with
  | ⟨0, _⟩ => show win3_5.index t (0 : Fin 2) * 128 + 1 * j.val = j.val; rw [e0]; omega
  | ⟨1, _⟩ => show win3_5.index t (1 : Fin 2) * 128 + 1 * k.val = k.val; rw [e1]; omega

/-- Entry (p, q) of the output's block t is entry (5000t + p, q) of the array. -/
theorem emb6_apply (t : Fin cfg3.N) (p : Fin 5000) (q : Fin 128) :
    (((cfg3.win 6).blk t).view.emb (ix2 p q) : S100000x128.Idx) = ix2 (row t p) q := by
  obtain ⟨-, -, -, -, -, -, -, -, -, -, -, e0, e1⟩ := idx_facts t
  refine funext fun a => Fin.ext ?_
  match a with
  | ⟨0, _⟩ => show win3_6.index t (0 : Fin 2) * 5000 + 1 * p.val = 5000 * t.val + p.val; rw [e0]; omega
  | ⟨1, _⟩ => show win3_6.index t (1 : Fin 2) * 128 + 1 * q.val = q.val; rw [e1]; omega

/-- What point t writes back is block t of `G`. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz2]
  simp only [View.ld_unit_zero (S := S5000x128) hz2, View.ld_unit_zero (S := S5000x1) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (iblk3 V c 3 t) (iblk3 V c 5 t) (iblk3 V c 4 t) (ix2 p q)
    = G V c (((cfg3.win 6).blk t).view.emb (ix2 p q))
  rw [Body.k3_pay1_eq, Body.k2_pay1_apply, emb6_apply]
  unfold G Spec.gcMulArr
  simp only [blk0_apply, blk1_apply, blk2_apply, blk3_apply, blk4_apply, blk5_apply]

/-- An index is in block t iff each coordinate is in the block's range on its axis. -/
theorem mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v59).slice (win3_6.rect t)).set ↔ _
  rw [View.set_slice_whole, Rect.mem_set_unit]
  exact Iff.rfl

/-- Every row lies in the block of its quotient by 5000. -/
theorem cover (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  refine ⟨⟨(i 0).val / 5000, by omega⟩, flush3_6 _, ?_⟩
  obtain ⟨-, -, -, -, -, -, -, -, -, -, -, e0, e1⟩ := idx_facts ⟨(i 0).val / 5000, by omega⟩
  rw [mem_blk]
  intro a
  match a with
  | ⟨0, _⟩ =>
    show win3_6.index _ (0 : Fin 2) * 5000 ≤ (i 0).val ∧ (i 0).val < win3_6.index _ (0 : Fin 2) * 5000 + 5000
    rw [e0]; show (i 0).val / 5000 * 5000 ≤ (i 0).val ∧ (i 0).val < (i 0).val / 5000 * 5000 + 5000; omega
  | ⟨1, _⟩ =>
    show win3_6.index _ (1 : Fin 2) * 128 ≤ (i 1).val ∧ (i 1).val < win3_6.index _ (1 : Fin 2) * 128 + 128
    rw [e1]; omega

/-- The output array after the call. -/
theorem final (c : Dev nD) : (dat3 V c).arrAt 6 cfg3.N = G V c :=
  (dat3 V c).arrAt_eq_of_cover 6 (G V c) (fun t _ => flushed_eq V c t) (cover)

end Cert.KernelIdeal.Region3

end
-- ==== Proof.DecBody.lean ====
/-
  The link decoder's body, read at one entry of its output block.

  For each of the block's 2000 label rows the body subtracts the two gathered feature rows, applies the first dense
  layer (product with the transposed weights on the matrix unit from a zero accumulator, plus the bias row), clamps at
  zero, the second dense layer and clamp likewise, and the last dense layer to one number; the column of 2000 numbers
  is then transposed to a row and laid as a [1, 1, 2000] block. Rounding to bf16 is the identity on the extended reals,
  so entry (0, 0, r) of the stored block is the row-level decoder `Spec.decVal` of row r of the two feature blocks.
-/
import proofs.«104036_j27625229648544_2_alg».proof.Proof.Gen.KernelIdeal.Skeleton
import proofs.«104036_j27625229648544_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DecBody

open Cert.KernelIdeal Cert.KernelIdeal.Gen Idealize.ShloMosaic Idealize.ShloMosaic.ValueIdx

/-- First dense layer's product: entry (p, q) is Σ_k lhs[p,k] · W1[q,k]. -/
theorem matmul1_apply {φ₁ φ₂ : FTy} (lhs : FVec Ideal S2000x128 φ₁) (w : FVec Ideal S128x128 φ₂) (p : Fin 2000) (q : Fin 128) :
    matmul dot_S2000x128_S128x128_S2000x128_1_0_0_1_n_n none lhs (transpose S128x128 [1, 0] w transposes_S128x128_p1_0_S128x128)
      (constant S2000x128 .f32 0x00000000#32) (ix2 p q) = ∑ k : Fin 128, lhs (ix2 p k) * w (ix2 q k) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ =>
        show (dot_S2000x128_S128x128_S2000x128_1_0_0_1_n_n.lhsIdx (ix2 p q) _ 0).val = p.val
        unfold DotDims.lhsIdx
        rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
        rfl
      | ⟨1, _⟩ => exact (dot_S2000x128_S128x128_S2000x128_1_0_0_1_n_n.lhsIdx_val_of_single rfl (ix2 p q) _).trans hk)
  have er : (dot_S2000x128_S128x128_S2000x128_1_0_0_1_n_n.rhsIdx (ix2 p q) ((contrEquiv1 dot_S2000x128_S128x128_S2000x128_1_0_0_1_n_n 128 rfl rfl).symm k) : S128x128.Idx) = ix2 k q :=
    funext fun a => Fin.ext (by
      match a with
      | ⟨0, _⟩ => exact (dot_S2000x128_S128x128_S2000x128_1_0_0_1_n_n.rhsIdx_val_of_single rfl (ix2 p q) _).trans hk
      | ⟨1, _⟩ =>
        show (dot_S2000x128_S128x128_S2000x128_1_0_0_1_n_n.rhsIdx (ix2 p q) _ 1).val = q.val
        unfold DotDims.rhsIdx
        rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
        rfl)
  rw [el, er]
  exact congrArg (lhs (ix2 p k) * ·) (transpose_apply [1, 0] w transposes_S128x128_p1_0_S128x128 (ix2 k q) (ix2 q k) (fun b => match b with
    | ⟨0, _⟩ => rfl
    | ⟨1, _⟩ => rfl))

/-- Second dense layer's product: entry (p, q) is Σ_k lhs[p,k] · W2[q,k]. -/
theorem matmul2_apply {φ₁ φ₂ : FTy} (lhs : FVec Ideal S2000x128 φ₁) (w : FVec Ideal S32x128 φ₂) (p : Fin 2000) (q : Fin 32) :
    matmul dot_S2000x128_S128x32_S2000x32_1_0_0_1_n_n none lhs (transpose S128x32 [1, 0] w transposes_S32x128_p1_0_S128x32)
      (constant S2000x32 .f32 0x00000000#32) (ix2 p q) = ∑ k : Fin 128, lhs (ix2 p k) * w (ix2 q k) := by
  simp only [matmul]
  rw [Ideal.matmul_constant_zero_apply, ← Equiv.sum_comp (contrEquiv1 dot_S2000x128_S128x32_S2000x32_1_0_0_1_n_n 128 rfl rfl).symm]
  refine Finset.sum_congr rfl fun k _ => ?_
  have hk := contrEquiv1_symm_val dot_S2000x128_S128x32_S2000x32_1_0_0_1_n_n 128 rfl rfl k
  have el : dot_S2000x128_S128x32_S2000x32_1_0_0_1_n_n.lhsIdx (ix2 p q) ((contrEquiv1 dot_S2000x128_S128x32_S2000x32_1_0_0_1_n_n 128 rfl rfl).symm k) = ix2 p k :=
    funext fun a => Fin.ext (by
      match a with
      | ⟨0, _⟩ =>
        show (dot_S2000x128_S128x32_S2000x32_1_0_0_1_n_n.lhsIdx (ix2 p q) _ 0).val = p.val
        unfold DotDims.lhsIdx
        rw [dif_neg (show ¬(0 : Fin S2000x128.rank) ∈ dot_S2000x128_S128x32_S2000x32_1_0_0_1_n_n.lhsBatch by decide), dif_pos (show (0 : Fin S2000x128.rank) ∈ dot_S2000x128_S128x32_S2000x32_1_0_0_1_n_n.lhsNonContracting by decide)]
        rfl
      | ⟨1, _⟩ => exact (dot_S2000x128_S128x32_S2000x32_1_0_0_1_n_n.lhsIdx_val_of_single rfl (ix2 p q) _).trans hk)
  have er : (dot_S2000x128_S128x32_S2000x32_1_0_0_1_n_n.rhsIdx (ix2 p q) ((contrEquiv1 dot_S2000x128_S128x32_S2000x32_1_0_0_1_n_n 128 rfl rfl).symm k) : S128x32.Idx) = ix2 k q :=
    funext fun a => Fin.ext (by
      match a with
      | ⟨0, _⟩ => exact (dot_S2000x128_S128x32_S2000x32_1_0_0_1_n_n.rhsIdx_val_of_single rfl (ix2 p q) _).trans hk
      | ⟨1, _⟩ =>
        show (dot_S2000x128_S128x32_S2000x32_1_0_0_1_n_n.rhsIdx (ix2 p q) _ 1).val = q.val
        unfold DotDims.rhsIdx
        rw [dif_neg (show ¬(1 : Fin S128x32.rank) ∈ dot_S2000x128_S128x32_S2000x32_1_0_0_1_n_n.rhsBatch by decide), dif_pos (show (1 : Fin S128x32.rank) ∈ dot_S2000x128_S128x32_S2000x32_1_0_0_1_n_n.rhsNonContracting by decide)]
        rfl)
  rw [el, er]
  exact congrArg (lhs (ix2 p k) * ·) (transpose_apply [1, 0] w transposes_S32x128_p1_0_S128x32 (ix2 k q) (ix2 q k) (fun b => match b with
    | ⟨0, _⟩ => rfl
    | ⟨1, _⟩ => rfl))

/-- Last dense layer's product: entry (p, 0) is Σ_k lhs[p,k] · Wp[0,k]. -/
theorem matmul3_apply {φ₁ φ₂ : FTy} (lhs : FVec Ideal S2000x32 φ₁) (w : FVec Ideal S1x32 φ₂) (p : Fin 2000) (q : Fin 1) :
    matmul dot_S2000x32_S32x1_S2000x1_1_0_0_1_n_n none lhs (transpose S32x1 [1, 0] w transposes_S1x32_p1_0_S32x1)
      (constant S2000x1 .f32 0x00000000#32) (ix2 p q) = ∑ k : Fin 32, lhs (ix2 p k) * w (ix2 q k) := by
  simp only [matmul]
  rw [Ideal.matmul_constant_zero_apply, ← Equiv.sum_comp (contrEquiv1 dot_S2000x32_S32x1_S2000x1_1_0_0_1_n_n 32 rfl rfl).symm]
  refine Finset.sum_congr rfl fun k _ => ?_
  have hk := contrEquiv1_symm_val dot_S2000x32_S32x1_S2000x1_1_0_0_1_n_n 32 rfl rfl k
  have el : dot_S2000x32_S32x1_S2000x1_1_0_0_1_n_n.lhsIdx (ix2 p q) ((contrEquiv1 dot_S2000x32_S32x1_S2000x1_1_0_0_1_n_n 32 rfl rfl).symm k) = ix2 p k :=
    funext fun a => Fin.ext (by
      match a with
      | ⟨0, _⟩ =>
        show (dot_S2000x32_S32x1_S2000x1_1_0_0_1_n_n.lhsIdx (ix2 p q) _ 0).val = p.val
        unfold DotDims.lhsIdx
        rw [dif_neg (show ¬(0 : Fin S2000x32.rank) ∈ dot_S2000x32_S32x1_S2000x1_1_0_0_1_n_n.lhsBatch by decide), dif_pos (show (0 : Fin S2000x32.rank) ∈ dot_S2000x32_S32x1_S2000x1_1_0_0_1_n_n.lhsNonContracting by decide)]
        rfl
      | ⟨1, _⟩ => exact (dot_S2000x32_S32x1_S2000x1_1_0_0_1_n_n.lhsIdx_val_of_single rfl (ix2 p q) _).trans hk)
  have er : (dot_S2000x32_S32x1_S2000x1_1_0_0_1_n_n.rhsIdx (ix2 p q) ((contrEquiv1 dot_S2000x32_S32x1_S2000x1_1_0_0_1_n_n 32 rfl rfl).symm k) : S32x1.Idx) = ix2 k q :=
    funext fun a => Fin.ext (by
      match a with
      | ⟨0, _⟩ => exact (dot_S2000x32_S32x1_S2000x1_1_0_0_1_n_n.rhsIdx_val_of_single rfl (ix2 p q) _).trans hk
      | ⟨1, _⟩ =>
        show (dot_S2000x32_S32x1_S2000x1_1_0_0_1_n_n.rhsIdx (ix2 p q) _ 1).val = q.val
        unfold DotDims.rhsIdx
        rw [dif_neg (show ¬(1 : Fin S32x1.rank) ∈ dot_S2000x32_S32x1_S2000x1_1_0_0_1_n_n.rhsBatch by decide), dif_pos (show (1 : Fin S32x1.rank) ∈ dot_S2000x32_S32x1_S2000x1_1_0_0_1_n_n.rhsNonContracting by decide)]
        rfl)
  rw [el, er]
  exact congrArg (lhs (ix2 p k) * ·) (transpose_apply [1, 0] w transposes_S1x32_p1_0_S32x1 (ix2 k q) (ix2 q k) (fun b => match b with
    | ⟨0, _⟩ => rfl
    | ⟨1, _⟩ => rfl))

/-- The first bias laid as a row and broadcast down the rows. -/
theorem row1_apply {α : Type} (v : S128.Idx → α) (p : Fin 2000) (q : Fin 128) :
    broadcastTo S2000x128 (shapeCast S1x128 v shapeCasts_S128_S1x128) broadcasts_S1x128_S2000x128 (ix2 p q) = v (ix1 q) := by
  rw [broadcastTo_apply (shapeCast S1x128 v shapeCasts_S128_S1x128) broadcasts_S1x128_S2000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])]
  rw [shapeCast_addUnit_apply ![128] v shapeCasts_S128_S1x128 (ix2 0 q)]
  exact congrArg v (funext fun a => match a with | ⟨0, _⟩ => rfl)

/-- The second bias laid as a row and broadcast down the rows. -/
theorem row2_apply {α : Type} (v : S32.Idx → α) (p : Fin 2000) (q : Fin 32) :
    broadcastTo S2000x32 (shapeCast S1x32 v shapeCasts_S32_S1x32) broadcasts_S1x32_S2000x32 (ix2 p q) = v (ix1 q) := by
  rw [broadcastTo_apply (shapeCast S1x32 v shapeCasts_S32_S1x32) broadcasts_S1x32_S2000x32 (ix2 p q) (ix2 0 q) (fun a => match a with
    | ⟨0, _⟩ => by show (0 : Nat) = if (1 : Nat) = 1 then 0 else p.val; rw [if_pos rfl]
    | ⟨1, _⟩ => by show q.val = if (32 : Nat) = 1 then 0 else q.val; rw [if_neg (by decide)])]
  rw [shapeCast_addUnit_apply ![32] v shapeCasts_S32_S1x32 (ix2 0 q)]
  exact congrArg v (funext fun a => match a with | ⟨0, _⟩ => rfl)

/-- The last bias, one number, broadcast down the rows. -/
theorem row3_apply {α : Type} (v : S1.Idx → α) (p : Fin 2000) (q : Fin 1) :
    broadcastTo S2000x1 (shapeCast S1x1 v shapeCasts_S1_S1x1) broadcasts_S1x1_S2000x1 (ix2 p q) = v (ix1 q) := by
  rw [broadcastTo_apply (shapeCast S1x1 v shapeCasts_S1_S1x1) broadcasts_S1x1_S2000x1 (ix2 p q) (ix2 0 q) (fun a => match a with
    | ⟨0, _⟩ => by show (0 : Nat) = if (1 : Nat) = 1 then 0 else p.val; rw [if_pos rfl]
    | ⟨1, _⟩ => by show q.val = if (1 : Nat) = 1 then 0 else q.val; rw [if_pos rfl]; have := q.isLt; omega)]
  rw [shapeCast_addUnit_apply ![1] v shapeCasts_S1_S1x1 (ix2 0 q)]
  exact congrArg v (funext fun a => match a with | ⟨0, _⟩ => rfl)

/-- The column of results transposed to a row and laid as a [1, 1, 2000] block: entry (0, 0, r) is the column's entry r. -/
theorem lay_apply {α : Type} (v : S2000x1.Idx → α) (r : Fin 2000) :
    shapeCast S1x1x2000 (transpose S1x2000 [1, 0] v transposes_S2000x1_p1_0_S1x2000) shapeCasts_S1x2000_S1x1x2000 (ix3 0 0 r) = v (ix2 r 0) := by
  rw [shapeCast_addUnit_apply ![1, 2000] (transpose S1x2000 [1, 0] v transposes_S2000x1_p1_0_S1x2000) shapeCasts_S1x2000_S1x1x2000 (ix3 0 0 r)]
  exact transpose_apply [1, 0] v transposes_S2000x1_p1_0_S1x2000 _ (ix2 r 0) (fun b => match b with
    | ⟨0, _⟩ => rfl
    | ⟨1, _⟩ => rfl)

/-- The stored block at (0, 0, r): the decoder of row r. -/
theorem k4_pay1_apply (v0 v2 : Vec Ideal S2000x128 .bf16) (v5 : Vec Ideal S128x128 .f32) (v9 : Vec Ideal S128 .f32)
    (v16 : Vec Ideal S32x128 .f32) (v20 : Vec Ideal S32 .f32) (v27 : Vec Ideal S1x32 .f32) (v31 : Vec Ideal S1 .f32) (r : Fin 2000) :
    k4_pay1 v0 v2 v5 v9 v16 v20 v27 v31 (ix3 0 0 r)
      = Spec.decVal (fun k => v0 (ix2 r k)) (fun k => v2 (ix2 r k)) (fun j k => v5 (ix2 j k)) (fun j => v9 (ix1 j))
          (fun j k => v16 (ix2 j k)) (fun j => v20 (ix1 j)) (fun j => v27 (ix2 0 j)) (v31 (ix1 0)) := by
  unfold k4_pay1
  dsimp only
  rw [lay_apply, addf_apply, matmul3_apply, row3_apply]
  unfold Spec.decVal
  refine congrArg (· + v31 (ix1 0)) (Finset.sum_congr rfl fun k2 _ => ?_)
  refine congrArg (· * v27 (ix2 0 k2)) ?_
  rw [truncf_apply, maximumf_apply, addf_apply, matmul2_apply, row2_apply, broadcast_apply]
  refine congrArg₂ max (congrArg (· + v20 (ix1 k2)) (Finset.sum_congr rfl fun k1 _ => ?_)) Ideal.ofBits_zero_f32
  refine congrArg (· * v16 (ix2 k2 k1)) ?_
  rw [truncf_apply, maximumf_apply, addf_apply, matmul1_apply, row1_apply, broadcast_apply]
  refine congrArg₂ max (congrArg (· + v9 (ix1 k1)) (Finset.sum_congr rfl fun k _ => ?_)) Ideal.ofBits_zero_f32
  rw [shapeCast_self, shapeCast_self, subf_apply, truncf_apply]

end Cert.KernelIdeal.DecBody

end
-- ==== Proof.DecRegion.lean ====
/-
  The decoder call as one function of the arrays it is given.

  The call walks the 200000 labelled pairs in blocks of 2000. At grid point t it is handed rows 2000t … 2000t + 1999 of
  the two gathered feature arrays and the six parameter arrays whole, and writes block (t, 0, 0) of its [100, 1, 2000]
  output. Row r of a block is row 2000t + r of the array, every output index (t, 0, r) lies in block t, and the body's
  entry (0, 0, r) is the row-level decoder (the body lemma). So after the call entry (t, 0, r) of the output array is
  the decoder of pair 2000t + r.
-/
import proofs.«104036_j27625229648544_2_alg».proof.Proof.Gen.KernelIdeal.Frame
import proofs.«104036_j27625229648544_2_alg».proof.Proof.DecBody
import proofs.«104036_j27625229648544_2_alg».proof.Proof.Layers

set_option maxRecDepth 16384

noncomputable section

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The pair an output index (t, 0, r) stands for: 2000t + r. -/
def pairOf (i : S100x1x2000.Idx) : Fin 200000 :=
  ⟨2000 * (i 0).val + (i 2).val, by have h0 : (i 0).val < 100 := (i 0).isLt; have h2 : (i 2).val < 2000 := (i 2).isLt; omega⟩

/-- The decoder over all pairs, as the call's eight arrays give it. -/
def D (c : Dev nD) : Spec.A1 200000 :=
  Spec.decArr (L := 200000) (V c main_v68) (V c main_v75) (V c main_arg14) (V c main_arg15) (V c main_arg16) (V c main_arg17) (V c main_arg18) (V c main_arg19)

/-- The call's output array: entry (t, 0, r) is the decoder of pair 2000t + r. -/
def G (c : Dev nD) : S100x1x2000.Idx → EReal := fun i => D V c (ix1 (pairOf i))

/-- The printed index maps over the grid: the two feature arrays at block (t, 0), the parameters at block 0, the
    output at block (t, 0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = 0 ∧ win4_6.index t (1 : Fin 2) = 0
    ∧ win4_7.index t (0 : Fin 1) = 0
    ∧ win4_8.index t (0 : Fin 3) = t.val ∧ win4_8.index t (1 : Fin 3) = 0 ∧ win4_8.index t (2 : Fin 3) = 0 :=
  (by decide +kernel : ∀ t : Fin grid4.N, _)

/-- Row r of block t is row 2000t + r of the array. -/
def row (t : Fin cfg4.N) (r : Fin 2000) : Fin 200000 :=
  ⟨2000 * t.val + r.val, by have hN : cfg4.N = 100 := N_4; have := t.isLt; have := r.isLt; omega⟩

theorem blk0_apply (c : Dev nD) (t : Fin cfg4.N) (r : Fin 2000) (k : Fin 128) :
    (iblk4 V c 0 t : Vec Ideal S2000x128 .bf16) (ix2 r k) = (V c main_v68 : S200000x128.Idx → EReal) (ix2 (row t r) k) := by
  have e := idx_facts t
  show (V c main_v68 : S200000x128.Idx → EReal) (((cfg4.win 0).blk t).view.emb (ix2 r k)) = _
  refine congrArg (V c main_v68 : S200000x128.Idx → EReal) (funext fun a => Fin.ext ?_)
  match a with
  | ⟨0, _⟩ => show win4_0.index t (0 : Fin 2) * 2000 + 1 * r.val = 2000 * t.val + r.val; rw [e.1]; omega
  | ⟨1, _⟩ => show win4_0.index t (1 : Fin 2) * 128 + 1 * k.val = k.val; rw [e.2.1]; omega

theorem blk1_apply (c : Dev nD) (t : Fin cfg4.N) (r : Fin 2000) (k : Fin 128) :
    (iblk4 V c 1 t : Vec Ideal S2000x128 .bf16) (ix2 r k) = (V c main_v75 : S200000x128.Idx → EReal) (ix2 (row t r) k) := by
  have e := idx_facts t
  show (V c main_v75 : S200000x128.Idx → EReal) (((cfg4.win 1).blk t).view.emb (ix2 r k)) = _
  refine congrArg (V c main_v75 : S200000x128.Idx → EReal) (funext fun a => Fin.ext ?_)
  match a with
  | ⟨0, _⟩ => show win4_1.index t (0 : Fin 2) * 2000 + 1 * r.val = 2000 * t.val + r.val; rw [e.2.2.1]; omega
  | ⟨1, _⟩ => show win4_1.index t (1 : Fin 2) * 128 + 1 * k.val = k.val; rw [e.2.2.2.1]; omega

theorem blk2_apply (c : Dev nD) (t : Fin cfg4.N) (j : Fin 128) (k : Fin 128) :
    (iblk4 V c 2 t : Vec Ideal S128x128 .f32) (ix2 j k) = (V c main_arg14 : S128x128.Idx → EReal) (ix2 j k) := by
  have e := idx_facts t
  show (V c main_arg14 : S128x128.Idx → EReal) (((cfg4.win 2).blk t).view.emb (ix2 j k)) = _
  refine congrArg (V c main_arg14 : S128x128.Idx → EReal) (funext fun a => Fin.ext ?_)
  match a with
  | ⟨0, _⟩ => show win4_2.index t (0 : Fin 2) * 128 + 1 * j.val = j.val; rw [e.2.2.2.2.1]; omega
  | ⟨1, _⟩ => show win4_2.index t (1 : Fin 2) * 128 + 1 * k.val = k.val; rw [e.2.2.2.2.2.1]; omega

theorem blk3_apply (c : Dev nD) (t : Fin cfg4.N) (j : Fin 128) :
    (iblk4 V c 3 t : Vec Ideal S128 .f32) (ix1 j) = (V c main_arg15 : S128.Idx → EReal) (ix1 j) := by
  have e := idx_facts t
  show (V c main_arg15 : S128.Idx → EReal) (((cfg4.win 3).blk t).view.emb (ix1 j)) = _
  refine congrArg (V c main_arg15 : S128.Idx → EReal) (funext fun a => Fin.ext ?_)
  match a with
  | ⟨0, _⟩ => show win4_3.index t (0 : Fin 1) * 128 + 1 * j.val = j.val; rw [e.2.2.2.2.2.2.1]; omega

theorem blk4_apply (c : Dev nD) (t : Fin cfg4.N) (j : Fin 32) (k : Fin 128) :
    (iblk4 V c 4 t : Vec Ideal S32x128 .f32) (ix2 j k) = (V c main_arg16 : S32x128.Idx → EReal) (ix2 j k) := by
  have e := idx_facts t
  show (V c main_arg16 : S32x128.Idx → EReal) (((cfg4.win 4).blk t).view.emb (ix2 j k)) = _
  refine congrArg (V c main_arg16 : S32x128.Idx → EReal) (funext fun a => Fin.ext ?_)
  match a with
  | ⟨0, _⟩ => show win4_4.index t (0 : Fin 2) * 32 + 1 * j.val = j.val; rw [e.2.2.2.2.2.2.2.1]; omega
  | ⟨1, _⟩ => show win4_4.index t (1 : Fin 2) * 128 + 1 * k.val = k.val; rw [e.2.2.2.2.2.2.2.2.1]; omega

theorem blk5_apply (c : Dev nD) (t : Fin cfg4.N) (j : Fin 32) :
    (iblk4 V c 5 t : Vec Ideal S32 .f32) (ix1 j) = (V c main_arg17 : S32.Idx → EReal) (ix1 j) := by
  have e := idx_facts t
  show (V c main_arg17 : S32.Idx → EReal) (((cfg4.win 5).blk t).view.emb (ix1 j)) = _
  refine congrArg (V c main_arg17 : S32.Idx → EReal) (funext fun a => Fin.ext ?_)
  match a with
  | ⟨0, _⟩ => show win4_5.index t (0 : Fin 1) * 32 + 1 * j.val = j.val; rw [e.2.2.2.2.2.2.2.2.2.1]; omega

theorem blk6_apply (c : Dev nD) (t : Fin cfg4.N) (j : Fin 1) (k : Fin 32) :
    (iblk4 V c 6 t : Vec Ideal S1x32 .f32) (ix2 j k) = (V c main_arg18 : S1x32.Idx → EReal) (ix2 j k) := by
  have e := idx_facts t
  show (V c main_arg18 : S1x32.Idx → EReal) (((cfg4.win 6).blk t).view.emb (ix2 j k)) = _
  refine congrArg (V c main_arg18 : S1x32.Idx → EReal) (funext fun a => Fin.ext ?_)
  match a with
  | ⟨0, _⟩ => show win4_6.index t (0 : Fin 2) * 1 + 1 * j.val = j.val; rw [e.2.2.2.2.2.2.2.2.2.2.1]; omega
  | ⟨1, _⟩ => show win4_6.index t (1 : Fin 2) * 32 + 1 * k.val = k.val; rw [e.2.2.2.2.2.2.2.2.2.2.2.1]; omega

theorem blk7_apply (c : Dev nD) (t : Fin cfg4.N) (j : Fin 1) :
    (iblk4 V c 7 t : Vec Ideal S1 .f32) (ix1 j) = (V c main_arg19 : S1.Idx → EReal) (ix1 j) := by
  have e := idx_facts t
  show (V c main_arg19 : S1.Idx → EReal) (((cfg4.win 7).blk t).view.emb (ix1 j)) = _
  refine congrArg (V c main_arg19 : S1.Idx → EReal) (funext fun a => Fin.ext ?_)
  match a with
  | ⟨0, _⟩ => show win4_7.index t (0 : Fin 1) * 1 + 1 * j.val = j.val; rw [e.2.2.2.2.2.2.2.2.2.2.2.2.1]; omega

/-- Entry (0, 0, r) of the output's block t is entry (t, 0, r) of the array, which stands for pair 2000t + r. -/
theorem pairOf_emb (t : Fin cfg4.N) (r : Fin 2000) :
    pairOf (((cfg4.win 8).blk t).view.emb (ix3 0 0 r) : S100x1x2000.Idx) = row t r := by
  have e := idx_facts t
  apply Fin.ext
  show 2000 * (win4_8.index t (0 : Fin 3) * 1 + 1 * 0) + (win4_8.index t (2 : Fin 3) * 2000 + 1 * r.val) = 2000 * t.val + r.val
  rw [e.2.2.2.2.2.2.2.2.2.2.2.2.2.1, e.2.2.2.2.2.2.2.2.2.2.2.2.2.2.2]; omega

/-- What point t writes back is block t of `G`. -/
theorem flushed_eq (c : Dev nD) (t : Fin cfg4.N) :
    (dat4 V c).flushed 8 t = ((cfg4.win 8).blk t).view.read (Elt Ideal) (G V c) := by
  show (cfg4.win 8).cut (grid4.coords t) ((dat4 V c).after 8 t) = _
  rw [after4_8]
  unfold out4_8
  rw [View.canon_unit_zero hz3]
  simp only [View.ld_unit_zero (S := S2000x128) hz2, View.ld_unit_zero (S := S128x128) hz2, View.ld_unit_zero (S := S32x128) hz2, View.ld_unit_zero (S := S1x32) hz2,
    View.ld_unit_zero (S := S128) hz1, View.ld_unit_zero (S := S32) hz1, View.ld_unit_zero (S := S1) hz1]
  funext j
  obtain ⟨r, rfl⟩ : ∃ r : Fin 2000, j = ix3 0 0 r := ⟨j 2, funext fun a => by
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => rfl⟩
  show k4_pay1 (iblk4 V c 0 t) (iblk4 V c 1 t) (iblk4 V c 2 t) (iblk4 V c 3 t) (iblk4 V c 4 t) (iblk4 V c 5 t) (iblk4 V c 6 t) (iblk4 V c 7 t) (ix3 0 0 r)
    = D V c (ix1 (pairOf (((cfg4.win 8).blk t).view.emb (ix3 0 0 r))))
  rw [DecBody.k4_pay1_apply, pairOf_emb]
  unfold D Spec.decArr
  simp only [blk0_apply, blk1_apply, blk2_apply, blk3_apply, blk4_apply, blk5_apply, blk6_apply, blk7_apply]

/-- An index is in block t iff each coordinate is in the block's range on its axis. -/
theorem mem_blk (t : Fin cfg4.N) (i : S100x1x2000.Idx) :
    i ∈ ((cfg4.win 8).blk t).view.set ↔ ∀ a : Fin 3, win4_8.index t a * S1x1x2000.size a ≤ (i a).val ∧ (i a).val < win4_8.index t a * S1x1x2000.size a + S1x1x2000.size a := by
  show i ∈ ((View.whole main_v76).slice (win4_8.rect t)).set ↔ _
  rw [View.set_slice_whole, Rect.mem_set_unit]
  exact Iff.rfl

/-- Output index (t, 0, r) lies in block t. -/
theorem cover (i : S100x1x2000.Idx) : ∃ t : Fin cfg4.N, (cfg4.win 8).flush t = true ∧ i ∈ ((cfg4.win 8).blk t).view.set := by
  have hi0 : (i 0).val < 100 := (i 0).isLt
  have hi1 : (i 1).val < 1 := (i 1).isLt
  have hi2 : (i 2).val < 2000 := (i 2).isLt
  have hN : cfg4.N = 100 := N_4
  refine ⟨⟨(i 0).val, by omega⟩, flush4_8 _, ?_⟩
  have e := idx_facts ⟨(i 0).val, by omega⟩
  rw [mem_blk]
  intro a
  match a with
  | ⟨0, _⟩ =>
    show win4_8.index _ (0 : Fin 3) * 1 ≤ (i 0).val ∧ (i 0).val < win4_8.index _ (0 : Fin 3) * 1 + 1
    rw [e.2.2.2.2.2.2.2.2.2.2.2.2.2.1]; show (i 0).val * 1 ≤ (i 0).val ∧ (i 0).val < (i 0).val * 1 + 1; omega
  | ⟨1, _⟩ =>
    show win4_8.index _ (1 : Fin 3) * 1 ≤ (i 1).val ∧ (i 1).val < win4_8.index _ (1 : Fin 3) * 1 + 1
    rw [e.2.2.2.2.2.2.2.2.2.2.2.2.2.2.1]; omega
  | ⟨2, _⟩ =>
    show win4_8.index _ (2 : Fin 3) * 2000 ≤ (i 2).val ∧ (i 2).val < win4_8.index _ (2 : Fin 3) * 2000 + 2000
    rw [e.2.2.2.2.2.2.2.2.2.2.2.2.2.2.2]; omega

/-- The output array after the call. -/
theorem final (c : Dev nD) : (dat4 V c).arrAt 8 cfg4.N = G V c :=
  (dat4 V c).arrAt_eq_of_cover 8 (G V c) (fun t _ => flushed_eq V c t) (cover)

end Cert.KernelIdeal.Region4

end
-- ==== Proof.KValue.lean ====
/-
  What the idealized kernel's result buffer holds at the end of the run, as one term of the argument arrays.

  @main alternates stretches of host operations with the five calls. Walking the boundaries of the run from the
  launch: the host computes, once per edge type, the column of reciprocals 1 / max(degree, 1) (`invH`, `invV`) and,
  before each GraphConv call, the sum of the source features gathered along the edges and scattered into the
  destination rows (`totH`, `totV`); call 0 and call 1 give the first layer's host and virus features (`H1`, `X1`),
  call 2 and call 3 the second layer's (`H2`, `X2`); the host gathers the two labelled endpoints' rows (`gatV`,
  `gatH`), call 4 decodes each pair, and the host lays the [100, 1, 2000] result out as one vector of 200000. A buffer
  that a stretch or a call does not produce holds at its exit what it held at its entry, so each array a call is given
  is read back to the boundary where it was produced, or to the launch memory.
-/
import proofs.«104036_j27625229648544_2_alg».proof.Proof.KRun
import proofs.«104036_j27625229648544_2_alg».proof.Proof.GcRegion0
import proofs.«104036_j27625229648544_2_alg».proof.Proof.GcRegion1
import proofs.«104036_j27625229648544_2_alg».proof.Proof.GcRegion2
import proofs.«104036_j27625229648544_2_alg».proof.Proof.GcRegion3
import proofs.«104036_j27625229648544_2_alg».proof.Proof.DecRegion
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.ShloMosaic.Tactic Idealize.ShloMosaic.ValueIdx Idealize.ShloMosaic.StableHlo
open Idealize.SL.Sem
open Idealize.ShloMosaic.Pipeline (Dat)

abbrev I32 (s : Shape) : Type := (⟨s, .i32⟩ : BufTy).Contents (Elt Ideal)
abbrev F32 (s : Shape) : Type := (⟨s, .f32⟩ : BufTy).Contents (Elt Ideal)
abbrev B16 (s : Shape) : Type := (⟨s, .bf16⟩ : BufTy).Contents (Elt Ideal)

/-- Edge endpoints as gather indices: a negative index counts from the end (`n` is the table's row count). -/
def edgeIdx (n : BitVec 32) (a : I32 S1600000) : I32 S1600000x1 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 n))) a)
/-- Edge destinations as scatter indices. -/
def dstIdx (a : I32 S1600000) : I32 S1600000x1 := broadcastInDim S1600000x1 ![0] bcast_S1600000_S1600000x1_0 a
/-- Label endpoints as gather indices. -/
def lblIdx (n : BitVec 32) (a : I32 S200000) : I32 S200000x1 :=
  broadcastInDim S200000x1 ![0] bcast_S200000_S200000x1_0
    (select (cmpi .slt a (broadcastInDim S200000 ![] bcast_S_S200000 (constantI S_ 32 0#32)))
      (addi a (broadcastInDim S200000 ![] bcast_S_S200000 (constantI S_ 32 n))) a)

/-- In-degrees of the host nodes, and the reciprocal of each clamped at one. -/
def degH (dst : I32 S1600000) : F32 S20000x1 :=
  Host.scatterAdd scatter_S20000x1_S1600000x1_S1600000x1_1_0_0_1 (broadcastInDim S20000x1 ![] bcast_S_S20000x1 (constant (F := Ideal) S_ .f32 0x00000000#32))
    (dstIdx dst) (broadcastInDim S1600000x1 ![] bcast_S_S1600000x1 (constant (F := Ideal) S_ .f32 0x3F800000#32))
def invH (dst : I32 S1600000) : F32 S20000x1 :=
  Host.divf (broadcastInDim S20000x1 ![] bcast_S_S20000x1 (constant (F := Ideal) S_ .f32 0x3F800000#32))
    (maximumf (degH dst) (broadcastInDim S20000x1 ![] bcast_S_S20000x1 (constant (F := Ideal) S_ .f32 0x3F800000#32)))
/-- In-degrees of the virus nodes, and the reciprocal of each clamped at one. -/
def degV (dst : I32 S1600000) : F32 S100000x1 :=
  Host.scatterAdd scatter_S100000x1_S1600000x1_S1600000x1_1_0_0_1 (broadcastInDim S100000x1 ![] bcast_S_S100000x1 (constant (F := Ideal) S_ .f32 0x00000000#32))
    (dstIdx dst) (broadcastInDim S1600000x1 ![] bcast_S_S1600000x1 (constant (F := Ideal) S_ .f32 0x3F800000#32))
def invV (dst : I32 S1600000) : F32 S100000x1 :=
  Host.divf (broadcastInDim S100000x1 ![] bcast_S_S100000x1 (constant (F := Ideal) S_ .f32 0x3F800000#32))
    (maximumf (degV dst) (broadcastInDim S100000x1 ![] bcast_S_S100000x1 (constant (F := Ideal) S_ .f32 0x3F800000#32)))

/-- Virus features gathered along the virus→host edges and summed into the host rows. -/
def totH (x : F32 S100000x128) (src dst : I32 S1600000) : F32 S20000x128 :=
  Host.scatterAdd scatter_S20000x128_S1600000x1_S1600000x128_1_0_0_1 (broadcastInDim S20000x128 ![] bcast_S_S20000x128 (constant (F := Ideal) S_ .f32 0x00000000#32))
    (dstIdx dst) (Host.gather gather_S100000x128_S1600000x1_S1600000x128_1_0_n_n_0_1_1128 x (edgeIdx 100000#32 src))
/-- Host features gathered along the host→virus edges and summed into the virus rows. -/
def totV (x : F32 S20000x128) (src dst : I32 S1600000) : F32 S100000x128 :=
  Host.scatterAdd scatter_S100000x128_S1600000x1_S1600000x128_1_0_0_1 (broadcastInDim S100000x128 ![] bcast_S_S100000x128 (constant (F := Ideal) S_ .f32 0x00000000#32))
    (dstIdx dst) (Host.gather gather_S20000x128_S1600000x1_S1600000x128_1_0_n_n_0_1_1128 x (edgeIdx 20000#32 src))
/-- The labelled virus rows and host rows (rounded to bf16 before the gather: the identity on the extended reals). -/
def gatV (x : F32 S100000x128) (lbl : I32 S200000) : B16 S200000x128 :=
  Host.gather gather_S100000x128_S200000x1_S200000x128_1_0_n_n_0_1_1128 (truncf .bf16 (x : FVec Ideal S100000x128 .f32) bitsLt_bf16_f32 : FVec Ideal S100000x128 .bf16) (lblIdx 100000#32 lbl)
def gatH (x : F32 S20000x128) (lbl : I32 S200000) : B16 S200000x128 :=
  Host.gather gather_S20000x128_S200000x1_S200000x128_1_0_n_n_0_1_1128 (truncf .bf16 (x : FVec Ideal S20000x128 .f32) bitsLt_bf16_f32 : FVec Ideal S20000x128 .bf16) (lblIdx 20000#32 lbl)

variable (m : (ℓ : Loc nD τ sig) → Buf (Elt Ideal) ℓ) (ρ : Dev nD → PrngReg)

/-! ## The argument arrays as launched -/
abbrev ar0 (c : Dev nD) : F32 S100000x128 := m ((c : Thread nD τ).loc main_arg0)
abbrev ar1 (c : Dev nD) : F32 S20000x128 := m ((c : Thread nD τ).loc main_arg1)
abbrev ar2 (c : Dev nD) : F32 S128x128 := m ((c : Thread nD τ).loc main_arg2)
abbrev ar3 (c : Dev nD) : F32 S128 := m ((c : Thread nD τ).loc main_arg3)
abbrev ar4 (c : Dev nD) : F32 S128x128 := m ((c : Thread nD τ).loc main_arg4)
abbrev ar5 (c : Dev nD) : F32 S128x128 := m ((c : Thread nD τ).loc main_arg5)
abbrev ar6 (c : Dev nD) : F32 S128 := m ((c : Thread nD τ).loc main_arg6)
abbrev ar7 (c : Dev nD) : F32 S128x128 := m ((c : Thread nD τ).loc main_arg7)
abbrev ar8 (c : Dev nD) : F32 S128x128 := m ((c : Thread nD τ).loc main_arg8)
abbrev ar9 (c : Dev nD) : F32 S128 := m ((c : Thread nD τ).loc main_arg9)
abbrev ar10 (c : Dev nD) : F32 S128x128 := m ((c : Thread nD τ).loc main_arg10)
abbrev ar11 (c : Dev nD) : F32 S128x128 := m ((c : Thread nD τ).loc main_arg11)
abbrev ar12 (c : Dev nD) : F32 S128 := m ((c : Thread nD τ).loc main_arg12)
abbrev ar13 (c : Dev nD) : F32 S128x128 := m ((c : Thread nD τ).loc main_arg13)
abbrev ar14 (c : Dev nD) : F32 S128x128 := m ((c : Thread nD τ).loc main_arg14)
abbrev ar15 (c : Dev nD) : F32 S128 := m ((c : Thread nD τ).loc main_arg15)
abbrev ar16 (c : Dev nD) : F32 S32x128 := m ((c : Thread nD τ).loc main_arg16)
abbrev ar17 (c : Dev nD) : F32 S32 := m ((c : Thread nD τ).loc main_arg17)
abbrev ar18 (c : Dev nD) : F32 S1x32 := m ((c : Thread nD τ).loc main_arg18)
abbrev ar19 (c : Dev nD) : F32 S1 := m ((c : Thread nD τ).loc main_arg19)
abbrev ar20 (c : Dev nD) : I32 S1600000 := m ((c : Thread nD τ).loc main_arg20)
abbrev ar21 (c : Dev nD) : I32 S1600000 := m ((c : Thread nD τ).loc main_arg21)
abbrev ar22 (c : Dev nD) : I32 S1600000 := m ((c : Thread nD τ).loc main_arg22)
abbrev ar23 (c : Dev nD) : I32 S1600000 := m ((c : Thread nD τ).loc main_arg23)
abbrev ar24 (c : Dev nD) : I32 S200000 := m ((c : Thread nD τ).loc main_arg24)
abbrev ar25 (c : Dev nD) : I32 S200000 := m ((c : Thread nD τ).loc main_arg25)

/-! ## The layers' features as terms of the arguments -/
def H1 (c : Dev nD) : F32 S20000x128 :=
  Spec.reluArr (Spec.gcMulArr (N := 20000) (totH (ar0 m c) (ar20 m c) (ar21 m c)) (invH (ar21 m c)) (ar1 m c) (ar2 m c) (ar3 m c) (ar4 m c))
def X1 (c : Dev nD) : F32 S100000x128 :=
  Spec.reluArr (Spec.gcMulArr (N := 100000) (totV (ar1 m c) (ar22 m c) (ar23 m c)) (invV (ar23 m c)) (ar0 m c) (ar5 m c) (ar6 m c) (ar7 m c))
def H2 (c : Dev nD) : F32 S20000x128 :=
  Spec.gcMulArr (N := 20000) (totH (X1 m c) (ar20 m c) (ar21 m c)) (invH (ar21 m c)) (H1 m c) (ar8 m c) (ar9 m c) (ar10 m c)
def X2 (c : Dev nD) : F32 S100000x128 :=
  Spec.gcMulArr (N := 100000) (totV (H1 m c) (ar22 m c) (ar23 m c)) (invV (ar23 m c)) (X1 m c) (ar11 m c) (ar12 m c) (ar13 m c)
/-- The decoder over the labelled pairs. -/
def OUT (c : Dev nD) : Spec.A1 200000 :=
  Spec.decArr (L := 200000) (gatV (X2 m c) (ar24 m c)) (gatH (H2 m c) (ar25 m c)) (ar14 m c) (ar15 m c) (ar16 m c) (ar17 m c) (ar18 m c) (ar19 m c)

/-! ## Before call 0 -/
theorem at1_v25 (c : Dev nD) : W1 m ρ c (Proc.devRef .tc main_v25) = totH (ar0 m c) (ar20 m c) (ar21 m c) := by
  show StableHlo.after hostOps0 (W0 m ρ c) (Proc.devRef .tc main_v25) = _
  dsimp only [hostOps0]
  after_results_simp
  rfl
theorem at1_v7 (c : Dev nD) : W1 m ρ c (Proc.devRef .tc main_v7) = invH (ar21 m c) := by
  show StableHlo.after hostOps0 (W0 m ρ c) (Proc.devRef .tc main_v7) = _
  dsimp only [hostOps0]
  after_results_simp
  rfl
theorem at1_v15 (c : Dev nD) : W1 m ρ c (Proc.devRef .tc main_v15) = invV (ar23 m c) := by
  show StableHlo.after hostOps0 (W0 m ρ c) (Proc.devRef .tc main_v15) = _
  dsimp only [hostOps0]
  after_results_simp
  rfl
theorem arg1_1 (c : Dev nD) : W1 m ρ c (Proc.devRef .tc main_arg1) = ar1 m c :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar1 m c := rfl
theorem arg1_2 (c : Dev nD) : W1 m ρ c (Proc.devRef .tc main_arg2) = ar2 m c :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar2 m c := rfl
theorem arg1_3 (c : Dev nD) : W1 m ρ c (Proc.devRef .tc main_arg3) = ar3 m c :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar3 m c := rfl
theorem arg1_4 (c : Dev nD) : W1 m ρ c (Proc.devRef .tc main_arg4) = ar4 m c :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar4 m c := rfl

/-! ## Call 0 and the stretch after it -/
theorem at2_v26 (c : Dev nD) : W2 m ρ c (Proc.devRef .tc main_v26) = H1 m c := by
  refine (W2_arr m ρ c 6).trans ((Region0.final (V1 m ρ) c).trans ?_)
  unfold Region0.G
  show Spec.reluArr (Spec.gcMulArr (N := 20000) (W1 m ρ c (Proc.devRef .tc main_v25)) (W1 m ρ c (Proc.devRef .tc main_v7)) (W1 m ρ c (Proc.devRef .tc main_arg1)) (W1 m ρ c (Proc.devRef .tc main_arg2)) (W1 m ρ c (Proc.devRef .tc main_arg3)) (W1 m ρ c (Proc.devRef .tc main_arg4))) = _
  rw [at1_v25 m ρ c, at1_v7 m ρ c, arg1_1 m ρ c, arg1_2 m ρ c, arg1_3 m ρ c, arg1_4 m ρ c]
  rfl
theorem arg2_23 (c : Dev nD) : W2 m ρ c (Proc.devRef .tc main_arg23) = ar23 m c :=
  calc W2 m ρ c (Proc.devRef .tc main_arg23)
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar23 m c := rfl
theorem arg2_1 (c : Dev nD) : W2 m ρ c (Proc.devRef .tc main_arg1) = ar1 m c :=
  calc W2 m ρ c (Proc.devRef .tc main_arg1)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar1 m c := rfl
theorem arg2_22 (c : Dev nD) : W2 m ρ c (Proc.devRef .tc main_arg22) = ar22 m c :=
  calc W2 m ρ c (Proc.devRef .tc main_arg22)
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar22 m c := rfl
theorem at3_v36 (c : Dev nD) : W3 m ρ c (Proc.devRef .tc main_v36) = totV (ar1 m c) (ar22 m c) (ar23 m c) := by
  show StableHlo.after hostOps1 (W2 m ρ c) (Proc.devRef .tc main_v36) = _
  dsimp only [hostOps1]
  after_results_simp
  rw [arg2_1 m ρ c, arg2_22 m ρ c, arg2_23 m ρ c]
  rfl
theorem at3_v15 (c : Dev nD) : W3 m ρ c (Proc.devRef .tc main_v15) = invV (ar23 m c) :=
  calc W3 m ρ c (Proc.devRef .tc main_v15)
    _ = W2 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v15) := W2_of_ne m ρ c main_v15 (by decide)
    _ = invV (ar23 m c) := at1_v15 m ρ c
theorem arg3_0 (c : Dev nD) : W3 m ρ c (Proc.devRef .tc main_arg0) = ar0 m c :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar0 m c := rfl
theorem arg3_5 (c : Dev nD) : W3 m ρ c (Proc.devRef .tc main_arg5) = ar5 m c :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar5 m c := rfl
theorem arg3_6 (c : Dev nD) : W3 m ρ c (Proc.devRef .tc main_arg6) = ar6 m c :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar6 m c := rfl
theorem arg3_7 (c : Dev nD) : W3 m ρ c (Proc.devRef .tc main_arg7) = ar7 m c :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar7 m c := rfl

/-! ## Call 1 and the stretch after it -/
theorem at4_v37 (c : Dev nD) : W4 m ρ c (Proc.devRef .tc main_v37) = X1 m c := by
  refine (W4_arr m ρ c 6).trans ((Region1.final (V3 m ρ) c).trans ?_)
  unfold Region1.G
  show Spec.reluArr (Spec.gcMulArr (N := 100000) (W3 m ρ c (Proc.devRef .tc main_v36)) (W3 m ρ c (Proc.devRef .tc main_v15)) (W3 m ρ c (Proc.devRef .tc main_arg0)) (W3 m ρ c (Proc.devRef .tc main_arg5)) (W3 m ρ c (Proc.devRef .tc main_arg6)) (W3 m ρ c (Proc.devRef .tc main_arg7))) = _
  rw [at3_v36 m ρ c, at3_v15 m ρ c, arg3_0 m ρ c, arg3_5 m ρ c, arg3_6 m ρ c, arg3_7 m ρ c]
  rfl
theorem arg4_21 (c : Dev nD) : W4 m ρ c (Proc.devRef .tc main_arg21) = ar21 m c :=
  calc W4 m ρ c (Proc.devRef .tc main_arg21)
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar21 m c := rfl
theorem arg4_20 (c : Dev nD) : W4 m ρ c (Proc.devRef .tc main_arg20) = ar20 m c :=
  calc W4 m ρ c (Proc.devRef .tc main_arg20)
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar20 m c := rfl
theorem at5_v47 (c : Dev nD) : W5 m ρ c (Proc.devRef .tc main_v47) = totH (X1 m c) (ar20 m c) (ar21 m c) := by
  show StableHlo.after hostOps2 (W4 m ρ c) (Proc.devRef .tc main_v47) = _
  dsimp only [hostOps2]
  after_results_simp
  rw [at4_v37 m ρ c, arg4_20 m ρ c, arg4_21 m ρ c]
  rfl
theorem at5_v7 (c : Dev nD) : W5 m ρ c (Proc.devRef .tc main_v7) = invH (ar21 m c) :=
  calc W5 m ρ c (Proc.devRef .tc main_v7)
    _ = W4 m ρ c (Proc.devRef .tc main_v7) := StableHlo.after_of_forall_not_mem (b := Proc.devRef .tc main_v7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v7) := W4_of_ne m ρ c main_v7 (by decide)
    _ = W2 m ρ c (Proc.devRef .tc main_v7) := StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v7) := (W2_arr m ρ c 1).trans (((dat0 (V1 m ρ) c).arrAt_in 1 rfl _).trans (A_eq0 (V1 m ρ) c 1))
    _ = invH (ar21 m c) := at1_v7 m ρ c
theorem at5_v26 (c : Dev nD) : W5 m ρ c (Proc.devRef .tc main_v26) = H1 m c :=
  calc W5 m ρ c (Proc.devRef .tc main_v26)
    _ = W4 m ρ c (Proc.devRef .tc main_v26) := StableHlo.after_of_forall_not_mem (b := Proc.devRef .tc main_v26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = H1 m c := at2_v26 m ρ c
theorem arg5_8 (c : Dev nD) : W5 m ρ c (Proc.devRef .tc main_arg8) = ar8 m c :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar8 m c := rfl
theorem arg5_9 (c : Dev nD) : W5 m ρ c (Proc.devRef .tc main_arg9) = ar9 m c :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar9 m c := rfl
theorem arg5_10 (c : Dev nD) : W5 m ρ c (Proc.devRef .tc main_arg10) = ar10 m c :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar10 m c := rfl

/-! ## Call 2 and the stretch after it -/
theorem at6_v48 (c : Dev nD) : W6 m ρ c (Proc.devRef .tc main_v48) = H2 m c := by
  refine (W6_arr m ρ c 6).trans ((Region2.final (V5 m ρ) c).trans ?_)
  unfold Region2.G
  show Spec.gcMulArr (N := 20000) (W5 m ρ c (Proc.devRef .tc main_v47)) (W5 m ρ c (Proc.devRef .tc main_v7)) (W5 m ρ c (Proc.devRef .tc main_v26)) (W5 m ρ c (Proc.devRef .tc main_arg8)) (W5 m ρ c (Proc.devRef .tc main_arg9)) (W5 m ρ c (Proc.devRef .tc main_arg10)) = _
  rw [at5_v47 m ρ c, at5_v7 m ρ c, at5_v26 m ρ c, arg5_8 m ρ c, arg5_9 m ρ c, arg5_10 m ρ c]
  rfl
theorem arg6_23 (c : Dev nD) : W6 m ρ c (Proc.devRef .tc main_arg23) = ar23 m c :=
  calc W6 m ρ c (Proc.devRef .tc main_arg23)
    _ = W5 m ρ c (Proc.devRef .tc main_arg23) := W6_of_ne m ρ c main_arg23 (by decide)
    _ = W4 m ρ c (Proc.devRef .tc main_arg23) := StableHlo.after_of_forall_not_mem (b := Proc.devRef .tc main_arg23) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar23 m c := rfl
theorem arg6_22 (c : Dev nD) : W6 m ρ c (Proc.devRef .tc main_arg22) = ar22 m c :=
  calc W6 m ρ c (Proc.devRef .tc main_arg22)
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar22 m c := rfl
theorem at6_v26 (c : Dev nD) : W6 m ρ c (Proc.devRef .tc main_v26) = H1 m c :=
  calc W6 m ρ c (Proc.devRef .tc main_v26)
    _ = W5 m ρ c (Proc.devRef .tc main_v26) := (W6_arr m ρ c 2).trans (((dat2 (V5 m ρ) c).arrAt_in 2 rfl _).trans (A_eq2 (V5 m ρ) c 2))
    _ = W4 m ρ c (Proc.devRef .tc main_v26) := StableHlo.after_of_forall_not_mem (b := Proc.devRef .tc main_v26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = H1 m c := at2_v26 m ρ c
theorem at7_v58 (c : Dev nD) : W7 m ρ c (Proc.devRef .tc main_v58) = totV (H1 m c) (ar22 m c) (ar23 m c) := by
  show StableHlo.after hostOps3 (W6 m ρ c) (Proc.devRef .tc main_v58) = _
  dsimp only [hostOps3]
  after_results_simp
  rw [at6_v26 m ρ c, arg6_22 m ρ c, arg6_23 m ρ c]
  rfl
theorem at7_v15 (c : Dev nD) : W7 m ρ c (Proc.devRef .tc main_v15) = invV (ar23 m c) :=
  calc W7 m ρ c (Proc.devRef .tc main_v15)
    _ = W6 m ρ c (Proc.devRef .tc main_v15) := StableHlo.after_of_forall_not_mem (b := Proc.devRef .tc main_v15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v15) := W6_of_ne m ρ c main_v15 (by decide)
    _ = W4 m ρ c (Proc.devRef .tc main_v15) := StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := (W4_arr m ρ c 1).trans (((dat1 (V3 m ρ) c).arrAt_in 1 rfl _).trans (A_eq1 (V3 m ρ) c 1))
    _ = W2 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v15) := W2_of_ne m ρ c main_v15 (by decide)
    _ = invV (ar23 m c) := at1_v15 m ρ c
theorem at7_v37 (c : Dev nD) : W7 m ρ c (Proc.devRef .tc main_v37) = X1 m c :=
  calc W7 m ρ c (Proc.devRef .tc main_v37)
    _ = W6 m ρ c (Proc.devRef .tc main_v37) := StableHlo.after_of_forall_not_mem (b := Proc.devRef .tc main_v37) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v37) := W6_of_ne m ρ c main_v37 (by decide)
    _ = W4 m ρ c (Proc.devRef .tc main_v37) := StableHlo.after_of_forall_not_mem (b := Proc.devRef .tc main_v37) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = X1 m c := at4_v37 m ρ c
theorem arg7_11 (c : Dev nD) : W7 m ρ c (Proc.devRef .tc main_arg11) = ar11 m c :=
  calc W7 m ρ c (Proc.devRef .tc main_arg11)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar11 m c := rfl
theorem arg7_12 (c : Dev nD) : W7 m ρ c (Proc.devRef .tc main_arg12) = ar12 m c :=
  calc W7 m ρ c (Proc.devRef .tc main_arg12)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar12 m c := rfl
theorem arg7_13 (c : Dev nD) : W7 m ρ c (Proc.devRef .tc main_arg13) = ar13 m c :=
  calc W7 m ρ c (Proc.devRef .tc main_arg13)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar13 m c := rfl

/-! ## Call 3 and the stretch after it -/
theorem at8_v59 (c : Dev nD) : W8 m ρ c (Proc.devRef .tc main_v59) = X2 m c := by
  refine (W8_arr m ρ c 6).trans ((Region3.final (V7 m ρ) c).trans ?_)
  unfold Region3.G
  show Spec.gcMulArr (N := 100000) (W7 m ρ c (Proc.devRef .tc main_v58)) (W7 m ρ c (Proc.devRef .tc main_v15)) (W7 m ρ c (Proc.devRef .tc main_v37)) (W7 m ρ c (Proc.devRef .tc main_arg11)) (W7 m ρ c (Proc.devRef .tc main_arg12)) (W7 m ρ c (Proc.devRef .tc main_arg13)) = _
  rw [at7_v58 m ρ c, at7_v15 m ρ c, at7_v37 m ρ c, arg7_11 m ρ c, arg7_12 m ρ c, arg7_13 m ρ c]
  rfl
theorem at8_v48 (c : Dev nD) : W8 m ρ c (Proc.devRef .tc main_v48) = H2 m c :=
  calc W8 m ρ c (Proc.devRef .tc main_v48)
    _ = W7 m ρ c (Proc.devRef .tc main_v48) := W8_of_ne m ρ c main_v48 (by decide)
    _ = W6 m ρ c (Proc.devRef .tc main_v48) := StableHlo.after_of_forall_not_mem (b := Proc.devRef .tc main_v48) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = H2 m c := at6_v48 m ρ c
theorem arg8_24 (c : Dev nD) : W8 m ρ c (Proc.devRef .tc main_arg24) = ar24 m c :=
  calc W8 m ρ c (Proc.devRef .tc main_arg24)
    _ = W7 m ρ c (Proc.devRef .tc main_arg24) := W8_of_ne m ρ c main_arg24 (by decide)
    _ = W6 m ρ c (Proc.devRef .tc main_arg24) := StableHlo.after_of_forall_not_mem (b := Proc.devRef .tc main_arg24) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg24) := W6_of_ne m ρ c main_arg24 (by decide)
    _ = W4 m ρ c (Proc.devRef .tc main_arg24) := StableHlo.after_of_forall_not_mem (b := Proc.devRef .tc main_arg24) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg24) := W4_of_ne m ρ c main_arg24 (by decide)
    _ = W2 m ρ c (Proc.devRef .tc main_arg24) := StableHlo.after_of_forall_not_mem (b := Proc.devRef .tc main_arg24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar24 m c := rfl
theorem arg8_25 (c : Dev nD) : W8 m ρ c (Proc.devRef .tc main_arg25) = ar25 m c :=
  calc W8 m ρ c (Proc.devRef .tc main_arg25)
    _ = W7 m ρ c (Proc.devRef .tc main_arg25) := W8_of_ne m ρ c main_arg25 (by decide)
    _ = W6 m ρ c (Proc.devRef .tc main_arg25) := StableHlo.after_of_forall_not_mem (b := Proc.devRef .tc main_arg25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg25) := W6_of_ne m ρ c main_arg25 (by decide)
    _ = W4 m ρ c (Proc.devRef .tc main_arg25) := StableHlo.after_of_forall_not_mem (b := Proc.devRef .tc main_arg25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg25) := W4_of_ne m ρ c main_arg25 (by decide)
    _ = W2 m ρ c (Proc.devRef .tc main_arg25) := StableHlo.after_of_forall_not_mem (b := Proc.devRef .tc main_arg25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg25) := W2_of_ne m ρ c main_arg25 (by decide)
    _ = W0 m ρ c (Proc.devRef .tc main_arg25) := StableHlo.after_of_forall_not_mem (b := Proc.devRef .tc main_arg25) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar25 m c := rfl
theorem at9_v68 (c : Dev nD) : W9 m ρ c (Proc.devRef .tc main_v68) = gatV (X2 m c) (ar24 m c) := by
  show StableHlo.after hostOps4 (W8 m ρ c) (Proc.devRef .tc main_v68) = _
  dsimp only [hostOps4]
  after_results_simp
  rw [at8_v59 m ρ c, arg8_24 m ρ c]
  rfl
theorem at9_v75 (c : Dev nD) : W9 m ρ c (Proc.devRef .tc main_v75) = gatH (H2 m c) (ar25 m c) := by
  show StableHlo.after hostOps4 (W8 m ρ c) (Proc.devRef .tc main_v75) = _
  dsimp only [hostOps4]
  after_results_simp
  rw [at8_v48 m ρ c, arg8_25 m ρ c]
  rfl
theorem arg9_14 (c : Dev nD) : W9 m ρ c (Proc.devRef .tc main_arg14) = ar14 m c :=
  calc W9 m ρ c (Proc.devRef .tc main_arg14)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar14 m c := rfl
theorem arg9_15 (c : Dev nD) : W9 m ρ c (Proc.devRef .tc main_arg15) = ar15 m c :=
  calc W9 m ρ c (Proc.devRef .tc main_arg15)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar15 m c := rfl
theorem arg9_16 (c : Dev nD) : W9 m ρ c (Proc.devRef .tc main_arg16) = ar16 m c :=
  calc W9 m ρ c (Proc.devRef .tc main_arg16)
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar16 m c := rfl
theorem arg9_17 (c : Dev nD) : W9 m ρ c (Proc.devRef .tc main_arg17) = ar17 m c :=
  calc W9 m ρ c (Proc.devRef .tc main_arg17)
    _ = W8 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar17 m c := rfl
theorem arg9_18 (c : Dev nD) : W9 m ρ c (Proc.devRef .tc main_arg18) = ar18 m c :=
  calc W9 m ρ c (Proc.devRef .tc main_arg18)
    _ = W8 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar18 m c := rfl
theorem arg9_19 (c : Dev nD) : W9 m ρ c (Proc.devRef .tc main_arg19) = ar19 m c :=
  calc W9 m ρ c (Proc.devRef .tc main_arg19)
    _ = W8 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ar19 m c := rfl

/-! ## Call 4 and the final layout -/
theorem at10_v76 (c : Dev nD) : W10 m ρ c (Proc.devRef .tc main_v76) = fun i => OUT m c (ix1 (Region4.pairOf i)) := by
  refine (W10_arr m ρ c 8).trans ((Region4.final (V9 m ρ) c).trans ?_)
  unfold Region4.G Region4.D
  show (fun i => Spec.decArr (L := 200000) (W9 m ρ c (Proc.devRef .tc main_v68)) (W9 m ρ c (Proc.devRef .tc main_v75)) (W9 m ρ c (Proc.devRef .tc main_arg14)) (W9 m ρ c (Proc.devRef .tc main_arg15)) (W9 m ρ c (Proc.devRef .tc main_arg16)) (W9 m ρ c (Proc.devRef .tc main_arg17)) (W9 m ρ c (Proc.devRef .tc main_arg18)) (W9 m ρ c (Proc.devRef .tc main_arg19)) (ix1 (Region4.pairOf i))) = _
  rw [at9_v68 m ρ c, at9_v75 m ρ c, arg9_14 m ρ c, arg9_15 m ρ c, arg9_16 m ρ c, arg9_17 m ρ c, arg9_18 m ρ c, arg9_19 m ρ c]
  rfl

/-- The result vector: entry r is the decoder of pair r. -/
theorem at11_v77 (c : Dev nD) : W11 m ρ c (Proc.devRef .tc main_v77) = OUT m c := by
  show StableHlo.after hostOps5 (W10 m ρ c) (Proc.devRef .tc main_v77) = _
  dsimp only [hostOps5]
  after_results_simp
  rw [at10_v76 m ρ c]
  funext j
  have hj : (j 0).val < 200000 := (j 0).isLt
  refine (shapeCast_apply _ shapeCasts_S100x1x2000_S200000 j (ix3 ⟨(j 0).val / 2000, by omega⟩ 0 ⟨(j 0).val % 2000, by omega⟩) ?_).trans ?_
  · rw [Shape.rowMajor_val_three, Shape.rowMajor_val_one]
    show ((j 0).val / 2000 * 1 + 0) * 2000 + (j 0).val % 2000 = (j 0).val
    omega
  · refine congrArg (OUT m c) (funext fun a => ?_)
    match a with
    | ⟨0, _⟩ => exact Fin.ext (by show 2000 * ((j 0).val / 2000) + (j 0).val % 2000 = (j 0).val; omega)

/-- The run: the result buffer ends at `OUT` of the arguments, the arguments as launched. -/
theorem run : θ_run defs (onTc (τ := τ) (main (F := Ideal))) ⟨m, fun _ => 0, ρ⟩ (fun r => ∀ c : Dev nD,
    r.2.mem ((c.tc : Thread nD τ).loc main_v77) = OUT m c) :=
  (θ_run defs _ _).mono (fun r h c => (h c).1.trans (at11_v77 m ρ c)) (KRun.run_result m ρ)

end Cert.KernelIdeal.KVal

end
-- ==== Proof.RefValue.lean ====
/-
  The reference, layer by layer, as the specification's functions of whole arrays.

  Each GraphConv layer of the reference is a chain of host operations: the summed messages divided by the clamped
  count column (broadcast along the features), the product with the transposed relation weights, the bias row, the
  product of the node features with the transposed root weights, and in the first layer a clamp at zero. Read at an
  index (r, j) the two products are sums over the contracted coordinate, a transpose swaps the two coordinates and a
  broadcast reads the row's or the column's entry, so the chain is the row-level combine with the quotient. The
  decoder's chain — difference of the gathered rows, two dense layers with a clamp at zero, a last dense layer to one
  number, and the [200000, 1] result laid as a vector — is the row-level decoder of each pair in the same way.
-/
import proofs.«104036_j27625229648544_2_alg».proof.Proof.Gen.ReferenceIdeal.Read
import proofs.«104036_j27625229648544_2_alg».proof.Proof.Layers

noncomputable section

namespace Cert.ReferenceIdeal.RefLayers

open Cert.ReferenceIdeal Cert.ReferenceIdeal.Gen Cert.ReferenceIdeal.Read Idealize.ShloMosaic Idealize.ShloMosaic.ValueIdx

/-- Two indices of rank two (one) with equal coordinates are equal. -/
macro "idx2" : tactic => `(tactic| (refine funext fun a => ?_; match a with | ⟨0, _⟩ => rfl | ⟨1, _⟩ => rfl))
macro "idx1" : tactic => `(tactic| (refine funext fun a => ?_; match a with | ⟨0, _⟩ => rfl))

/-- First layer, host nodes: the reference's chain of host operations is the combine with the quotient by the clamped counts, clamped at zero. -/
theorem layer0_host (x0 : (⟨S100000x128, .f32⟩ : BufTy).Contents (Elt Ideal)) (x1 : (⟨S20000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x20 : (⟨S1600000, .i32⟩ : BufTy).Contents (Elt Ideal)) (x21 : (⟨S1600000, .i32⟩ : BufTy).Contents (Elt Ideal)) :
    val_main_v53 (F := Ideal) x0 x1 x2 x3 x4 x20 x21 = Spec.reluArr (Spec.gcDivArr (N := 20000) (val_main_v9 (F := Ideal) x0 x20 x21) (val_main_v15 (F := Ideal) x21) x1 x2 x3 x4) := by
  funext i
  rw [val_main_v53_apply, val_main_v25_apply, val_main_v22_apply, val_main_v19_apply, val_main_v21_apply, val_main_v20_apply, val_main_v24_apply]
  unfold Spec.reluArr Spec.gcDivArr Spec.gcDiv
  beta_reduce
  refine congrArg₂ max (congrArg₂ (· + ·) (congrArg₂ (· + ·) (Finset.sum_congr rfl fun k _ => ?_) ?_) (Finset.sum_congr rfl fun k _ => ?_)) ?_
  · rw [val_main_v17_apply, val_main_v16_apply, val_main_v18_apply]
    have e1 : lidx_main_v19 i k = ix2 (i 0) k := by idx2
    have e2 : idx_main_v16 (lidx_main_v19 i k) = ix2 (i 0) 0 := by idx2
    have e3 : idx_main_v18 (ridx_main_v19 i k) = ix2 (i 1) k := by idx2
    rw [e1, e2, e3]; rfl
  · exact congrArg x3 (by idx1)
  · rw [val_main_v23_apply]
    have e1 : lidx_main_v24 i k = ix2 (i 0) k := by idx2
    have e2 : idx_main_v23 (ridx_main_v24 i k) = ix2 (i 1) k := by idx2
    rw [e1, e2]; rfl
  · exact Ideal.ofBits_zero_f32

/-- First layer, virus nodes: the combine with the quotient by the clamped counts, clamped at zero. -/
theorem layer0_virus (x0 : (⟨S100000x128, .f32⟩ : BufTy).Contents (Elt Ideal)) (x1 : (⟨S20000x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x22 : (⟨S1600000, .i32⟩ : BufTy).Contents (Elt Ideal)) (x23 : (⟨S1600000, .i32⟩ : BufTy).Contents (Elt Ideal)) :
    val_main_v52 (F := Ideal) x0 x1 x5 x6 x7 x22 x23 = Spec.reluArr (Spec.gcDivArr (N := 100000) (val_main_v35 (F := Ideal) x1 x22 x23) (val_main_v41 (F := Ideal) x23) x0 x5 x6 x7) := by
  funext i
  rw [val_main_v52_apply, val_main_v51_apply, val_main_v48_apply, val_main_v45_apply, val_main_v47_apply, val_main_v46_apply, val_main_v50_apply]
  unfold Spec.reluArr Spec.gcDivArr Spec.gcDiv
  beta_reduce
  refine congrArg₂ max (congrArg₂ (· + ·) (congrArg₂ (· + ·) (Finset.sum_congr rfl fun k _ => ?_) ?_) (Finset.sum_congr rfl fun k _ => ?_)) ?_
  · rw [val_main_v43_apply, val_main_v42_apply, val_main_v44_apply]
    have e1 : lidx_main_v45 i k = ix2 (i 0) k := by idx2
    have e2 : idx_main_v42 (lidx_main_v45 i k) = ix2 (i 0) 0 := by idx2
    have e3 : idx_main_v44 (ridx_main_v45 i k) = ix2 (i 1) k := by idx2
    rw [e1, e2, e3]; rfl
  · exact congrArg x6 (by idx1)
  · rw [val_main_v49_apply]
    have e1 : lidx_main_v50 i k = ix2 (i 0) k := by idx2
    have e2 : idx_main_v49 (ridx_main_v50 i k) = ix2 (i 1) k := by idx2
    rw [e1, e2]; rfl
  · exact Ideal.ofBits_zero_f32

/-- Second layer, host nodes: the combine over the first layer's features, not clamped. -/
theorem layer1_host (x0 : (⟨S100000x128, .f32⟩ : BufTy).Contents (Elt Ideal)) (x1 : (⟨S20000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x20 : (⟨S1600000, .i32⟩ : BufTy).Contents (Elt Ideal)) (x21 : (⟨S1600000, .i32⟩ : BufTy).Contents (Elt Ideal)) (x22 : (⟨S1600000, .i32⟩ : BufTy).Contents (Elt Ideal)) (x23 : (⟨S1600000, .i32⟩ : BufTy).Contents (Elt Ideal)) :
    val_main_v79 (F := Ideal) x0 x1 x2 x3 x4 x5 x6 x7 x8 x9 x10 x20 x21 x22 x23 = Spec.gcDivArr (N := 20000) (val_main_v63 (F := Ideal) x0 x1 x5 x6 x7 x20 x21 x22 x23) (val_main_v69 (F := Ideal) x21) (val_main_v53 (F := Ideal) x0 x1 x2 x3 x4 x20 x21) x8 x9 x10 := by
  funext i
  rw [val_main_v79_apply, val_main_v76_apply, val_main_v73_apply, val_main_v75_apply, val_main_v74_apply, val_main_v78_apply]
  unfold Spec.gcDivArr Spec.gcDiv
  beta_reduce
  refine (congrArg₂ (· + ·) (congrArg₂ (· + ·) (Finset.sum_congr rfl fun k _ => ?_) ?_) (Finset.sum_congr rfl fun k _ => ?_))
  · rw [val_main_v71_apply, val_main_v70_apply, val_main_v72_apply]
    have e1 : lidx_main_v73 i k = ix2 (i 0) k := by idx2
    have e2 : idx_main_v70 (lidx_main_v73 i k) = ix2 (i 0) 0 := by idx2
    have e3 : idx_main_v72 (ridx_main_v73 i k) = ix2 (i 1) k := by idx2
    rw [e1, e2, e3]; rfl
  · exact congrArg x9 (by idx1)
  · rw [val_main_v77_apply]
    have e1 : lidx_main_v78 i k = ix2 (i 0) k := by idx2
    have e2 : idx_main_v77 (ridx_main_v78 i k) = ix2 (i 1) k := by idx2
    rw [e1, e2]; rfl

/-- Second layer, virus nodes: the combine over the first layer's features, not clamped. -/
theorem layer1_virus (x0 : (⟨S100000x128, .f32⟩ : BufTy).Contents (Elt Ideal)) (x1 : (⟨S20000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x20 : (⟨S1600000, .i32⟩ : BufTy).Contents (Elt Ideal)) (x21 : (⟨S1600000, .i32⟩ : BufTy).Contents (Elt Ideal)) (x22 : (⟨S1600000, .i32⟩ : BufTy).Contents (Elt Ideal)) (x23 : (⟨S1600000, .i32⟩ : BufTy).Contents (Elt Ideal)) :
    val_main_v105 (F := Ideal) x0 x1 x2 x3 x4 x5 x6 x7 x11 x12 x13 x20 x21 x22 x23 = Spec.gcDivArr (N := 100000) (val_main_v89 (F := Ideal) x0 x1 x2 x3 x4 x20 x21 x22 x23) (val_main_v95 (F := Ideal) x23) (val_main_v52 (F := Ideal) x0 x1 x5 x6 x7 x22 x23) x11 x12 x13 := by
  funext i
  rw [val_main_v105_apply, val_main_v102_apply, val_main_v99_apply, val_main_v101_apply, val_main_v100_apply, val_main_v104_apply]
  unfold Spec.gcDivArr Spec.gcDiv
  beta_reduce
  refine (congrArg₂ (· + ·) (congrArg₂ (· + ·) (Finset.sum_congr rfl fun k _ => ?_) ?_) (Finset.sum_congr rfl fun k _ => ?_))
  · rw [val_main_v97_apply, val_main_v96_apply, val_main_v98_apply]
    have e1 : lidx_main_v99 i k = ix2 (i 0) k := by idx2
    have e2 : idx_main_v96 (lidx_main_v99 i k) = ix2 (i 0) 0 := by idx2
    have e3 : idx_main_v98 (ridx_main_v99 i k) = ix2 (i 1) k := by idx2
    rw [e1, e2, e3]; rfl
  · exact congrArg x12 (by idx1)
  · rw [val_main_v103_apply]
    have e1 : lidx_main_v104 i k = ix2 (i 0) k := by idx2
    have e2 : idx_main_v103 (ridx_main_v104 i k) = ix2 (i 1) k := by idx2
    rw [e1, e2]; rfl

/-- The decoder: the reference's chain from the two gathered feature arrays to the result vector is the row-level decoder of
    each labelled pair. -/
theorem decoder (x0 : (⟨S100000x128, .f32⟩ : BufTy).Contents (Elt Ideal)) (x1 : (⟨S20000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128x128, .f32⟩ : BufTy).Contents (Elt Ideal)) (x15 : (⟨S128, .f32⟩ : BufTy).Contents (Elt Ideal)) (x16 : (⟨S32x128, .f32⟩ : BufTy).Contents (Elt Ideal)) (x17 : (⟨S32, .f32⟩ : BufTy).Contents (Elt Ideal)) (x18 : (⟨S1x32, .f32⟩ : BufTy).Contents (Elt Ideal)) (x19 : (⟨S1, .f32⟩ : BufTy).Contents (Elt Ideal)) (x20 : (⟨S1600000, .i32⟩ : BufTy).Contents (Elt Ideal)) (x21 : (⟨S1600000, .i32⟩ : BufTy).Contents (Elt Ideal)) (x22 : (⟨S1600000, .i32⟩ : BufTy).Contents (Elt Ideal)) (x23 : (⟨S1600000, .i32⟩ : BufTy).Contents (Elt Ideal)) (x24 : (⟨S200000, .i32⟩ : BufTy).Contents (Elt Ideal)) (x25 : (⟨S200000, .i32⟩ : BufTy).Contents (Elt Ideal)) :
    val_main_v138 (F := Ideal) x0 x1 x2 x3 x4 x5 x6 x7 x8 x9 x10 x11 x12 x13 x14 x15 x16 x17 x18 x19 x20 x21 x22 x23 x24 x25 = Spec.decArr (L := 200000) (val_main_v112 (F := Ideal) x0 x1 x2 x3 x4 x5 x6 x7 x11 x12 x13 x20 x21 x22 x23 x24) (val_main_v119 (F := Ideal) x0 x1 x2 x3 x4 x5 x6 x7 x8 x9 x10 x20 x21 x22 x23 x25) x14 x15 x16 x17 x18 x19 := by
  funext i
  rw [val_main_v138_apply, val_main_v137_apply, val_main_v134_apply, val_main_v136_apply, val_main_v135_apply]
  unfold Spec.decArr Spec.decVal
  beta_reduce
  refine congrArg₂ (· + ·) (Finset.sum_congr rfl fun k2 _ => ?_) (congrArg x19 (by idx1))
  rw [val_main_v132_apply, val_main_v131_apply, val_main_v128_apply, val_main_v130_apply, val_main_v129_apply, val_main_v133_apply]
  refine congrArg₂ (· * ·) (congrArg₂ max (congrArg₂ (· + ·) (Finset.sum_congr rfl fun k1 _ => ?_) (congrArg x17 (by idx1))) Ideal.ofBits_zero_f32) (congrArg x18 (by idx2))
  rw [val_main_v126_apply, val_main_v125_apply, val_main_v122_apply, val_main_v124_apply, val_main_v123_apply, val_main_v127_apply]
  refine congrArg₂ (· * ·) (congrArg₂ max (congrArg₂ (· + ·) (Finset.sum_congr rfl fun k _ => ?_) (congrArg x15 (by idx1))) Ideal.ofBits_zero_f32) (congrArg x16 (by idx2))
  rw [val_main_v120_apply, val_main_v121_apply]
  have e1 : lidx_main_v122 (lidx_main_v128 (lidx_main_v134 (idx_main_v138 i) k2) k1) k = ix2 (i 0) k := by
    refine funext fun a => ?_
    match a with
    | ⟨0, _⟩ => exact Fin.ext (Nat.div_one _)
    | ⟨1, _⟩ => rfl
  have e2 : idx_main_v121 (ridx_main_v122 (lidx_main_v128 (lidx_main_v134 (idx_main_v138 i) k2) k1) k) = ix2 k1 k := by idx2
  rw [e1, e2]; rfl

end Cert.ReferenceIdeal.RefLayers

end
-- ==== Proof.Bridge.lean ====
/-
  The kernel's result and the reference's result are one function of the arguments.

  Both programs gather and scatter with the same host operations, so the summed messages, the in-degree columns and
  the labelled rows are the same terms on both sides. The kernel multiplies the summed messages by a reciprocal
  column 1 / max(degree, 1) computed once; the reference divides them by max(degree, 1), computed again in each
  layer. A degree clamped at one is not zero, so the product with its reciprocal is the quotient on every extended
  real (`Spec.gcMulArr_eq_gcDivArr`); layer by layer the kernel's features are therefore the reference's, and the
  decoder, the same function on both sides, is applied to the same gathered rows.
-/
import proofs.«104036_j27625229648544_2_alg».proof.Proof.KValue
import proofs.«104036_j27625229648544_2_alg».proof.Proof.RefValue
import Idealize.ShloMosaic.Lib.IdealHost

noncomputable section

namespace Cert.Proof.Bridge

open Idealize.ShloMosaic Idealize.ShloMosaic.ValueIdx Idealize.SL.Sem
open Cert.KernelIdeal.KVal Cert.ReferenceIdeal.Read Cert.ReferenceIdeal.RefLayers

/-! ## The degree columns -/

theorem degH_eq (d : I32 Cert.KernelIdeal.S1600000) : degH d = val_main_v13 (F := Ideal) d := rfl
theorem degH_eq' (d : I32 Cert.KernelIdeal.S1600000) : degH d = val_main_v67 (F := Ideal) d := rfl
theorem degV_eq (d : I32 Cert.KernelIdeal.S1600000) : degV d = val_main_v39 (F := Ideal) d := rfl
theorem degV_eq' (d : I32 Cert.KernelIdeal.S1600000) : degV d = val_main_v93 (F := Ideal) d := rfl

/-- The host's quotient of two arrays, entry by entry. -/
theorem divf_apply {s : Shape} (a b : FVec Ideal s .f32) (i : s.Idx) : Host.divf a b i = Ideal.div (a i) (b i) := rfl

/-- A column of ones: the scalar one broadcast to any shape reads one at every index. -/
theorem ones_apply {t : Shape} (h : (⟨0, ![]⟩ : Shape).BroadcastsInDim t (![] : Fin 0 → Fin t.rank)) (i : t.Idx) :
    broadcastInDim t ![] h (constant (F := Ideal) (⟨0, ![]⟩ : Shape) .f32 0x3F800000#32) i = 1 := by
  rw [broadcastInDim_apply ![] h _ i ix0 (fun a => a.elim0), constant_apply, Ideal.ofBits_one_f32]

/-- The kernel's reciprocal column is 1 / max(degree, 1), entry by entry. -/
theorem invH_eq (d : I32 Cert.KernelIdeal.S1600000) : invH d = fun i => Ideal.div 1 (max (degH d i) 1) := by
  funext i
  unfold invH
  rw [divf_apply, maximumf_apply, ones_apply]
theorem invV_eq (d : I32 Cert.KernelIdeal.S1600000) : invV d = fun i => Ideal.div 1 (max (degV d i) 1) := by
  funext i
  unfold invV
  rw [divf_apply, maximumf_apply, ones_apply]

/-- The reference's clamped-count columns are max(degree, 1), entry by entry, in both layers. -/
theorem cntH_eq (d : I32 Cert.KernelIdeal.S1600000) : val_main_v15 (F := Ideal) d = fun i => max (degH d i) 1 := by
  funext i
  rw [val_main_v15_apply, val_main_v14_apply, val_main_cst_3_apply, Ideal.ofBits_def, Ideal.ofBits_one_f32, Ideal.maximumf_def, ← degH_eq]
theorem cntH_eq' (d : I32 Cert.KernelIdeal.S1600000) : val_main_v69 (F := Ideal) d = fun i => max (degH d i) 1 := by
  funext i
  rw [val_main_v69_apply, val_main_v68_apply, val_main_cst_15_apply, Ideal.ofBits_def, Ideal.ofBits_one_f32, Ideal.maximumf_def, ← degH_eq']
theorem cntV_eq (d : I32 Cert.KernelIdeal.S1600000) : val_main_v41 (F := Ideal) d = fun i => max (degV d i) 1 := by
  funext i
  rw [val_main_v41_apply, val_main_v40_apply, val_main_cst_9_apply, Ideal.ofBits_def, Ideal.ofBits_one_f32, Ideal.maximumf_def, ← degV_eq]
theorem cntV_eq' (d : I32 Cert.KernelIdeal.S1600000) : val_main_v95 (F := Ideal) d = fun i => max (degV d i) 1 := by
  funext i
  rw [val_main_v95_apply, val_main_v94_apply, val_main_cst_21_apply, Ideal.ofBits_def, Ideal.ofBits_one_f32, Ideal.maximumf_def, ← degV_eq']

/-! ## The summed messages and the labelled rows: the same host operations on both sides -/

theorem totH_eq0 (x0 : (⟨Cert.KernelIdeal.S100000x128, .f32⟩ : BufTy).Contents (Elt Ideal)) (x20 : (⟨Cert.KernelIdeal.S1600000, .i32⟩ : BufTy).Contents (Elt Ideal)) (x21 : (⟨Cert.KernelIdeal.S1600000, .i32⟩ : BufTy).Contents (Elt Ideal)) : totH x0 x20 x21 = val_main_v9 (F := Ideal) x0 x20 x21 := rfl
theorem totV_eq0 (x1 : (⟨Cert.KernelIdeal.S20000x128, .f32⟩ : BufTy).Contents (Elt Ideal)) (x22 : (⟨Cert.KernelIdeal.S1600000, .i32⟩ : BufTy).Contents (Elt Ideal)) (x23 : (⟨Cert.KernelIdeal.S1600000, .i32⟩ : BufTy).Contents (Elt Ideal)) : totV x1 x22 x23 = val_main_v35 (F := Ideal) x1 x22 x23 := rfl
theorem totH_eq1 (x0 : (⟨Cert.KernelIdeal.S100000x128, .f32⟩ : BufTy).Contents (Elt Ideal)) (x1 : (⟨Cert.KernelIdeal.S20000x128, .f32⟩ : BufTy).Contents (Elt Ideal)) (x5 : (⟨Cert.KernelIdeal.S128x128, .f32⟩ : BufTy).Contents (Elt Ideal)) (x6 : (⟨Cert.KernelIdeal.S128, .f32⟩ : BufTy).Contents (Elt Ideal)) (x7 : (⟨Cert.KernelIdeal.S128x128, .f32⟩ : BufTy).Contents (Elt Ideal)) (x20 : (⟨Cert.KernelIdeal.S1600000, .i32⟩ : BufTy).Contents (Elt Ideal)) (x21 : (⟨Cert.KernelIdeal.S1600000, .i32⟩ : BufTy).Contents (Elt Ideal)) (x22 : (⟨Cert.KernelIdeal.S1600000, .i32⟩ : BufTy).Contents (Elt Ideal)) (x23 : (⟨Cert.KernelIdeal.S1600000, .i32⟩ : BufTy).Contents (Elt Ideal)) : totH (val_main_v52 (F := Ideal) x0 x1 x5 x6 x7 x22 x23) x20 x21 = val_main_v63 (F := Ideal) x0 x1 x5 x6 x7 x20 x21 x22 x23 := rfl
theorem totV_eq1 (x0 : (⟨Cert.KernelIdeal.S100000x128, .f32⟩ : BufTy).Contents (Elt Ideal)) (x1 : (⟨Cert.KernelIdeal.S20000x128, .f32⟩ : BufTy).Contents (Elt Ideal)) (x2 : (⟨Cert.KernelIdeal.S128x128, .f32⟩ : BufTy).Contents (Elt Ideal)) (x3 : (⟨Cert.KernelIdeal.S128, .f32⟩ : BufTy).Contents (Elt Ideal)) (x4 : (⟨Cert.KernelIdeal.S128x128, .f32⟩ : BufTy).Contents (Elt Ideal)) (x20 : (⟨Cert.KernelIdeal.S1600000, .i32⟩ : BufTy).Contents (Elt Ideal)) (x21 : (⟨Cert.KernelIdeal.S1600000, .i32⟩ : BufTy).Contents (Elt Ideal)) (x22 : (⟨Cert.KernelIdeal.S1600000, .i32⟩ : BufTy).Contents (Elt Ideal)) (x23 : (⟨Cert.KernelIdeal.S1600000, .i32⟩ : BufTy).Contents (Elt Ideal)) : totV (val_main_v53 (F := Ideal) x0 x1 x2 x3 x4 x20 x21) x22 x23 = val_main_v89 (F := Ideal) x0 x1 x2 x3 x4 x20 x21 x22 x23 := rfl
/-- Rounding to bf16 is the identity on the extended reals. -/
theorem truncf_id {s : Shape} (a : FVec Ideal s .f32) (h : FTy.bf16.bits < FTy.f32.bits) : (truncf .bf16 a h : FVec Ideal s .bf16) = a := rfl

theorem gatV_eq (x0 : (⟨Cert.KernelIdeal.S100000x128, .f32⟩ : BufTy).Contents (Elt Ideal)) (x1 : (⟨Cert.KernelIdeal.S20000x128, .f32⟩ : BufTy).Contents (Elt Ideal)) (x2 : (⟨Cert.KernelIdeal.S128x128, .f32⟩ : BufTy).Contents (Elt Ideal)) (x3 : (⟨Cert.KernelIdeal.S128, .f32⟩ : BufTy).Contents (Elt Ideal)) (x4 : (⟨Cert.KernelIdeal.S128x128, .f32⟩ : BufTy).Contents (Elt Ideal)) (x5 : (⟨Cert.KernelIdeal.S128x128, .f32⟩ : BufTy).Contents (Elt Ideal)) (x6 : (⟨Cert.KernelIdeal.S128, .f32⟩ : BufTy).Contents (Elt Ideal)) (x7 : (⟨Cert.KernelIdeal.S128x128, .f32⟩ : BufTy).Contents (Elt Ideal)) (x11 : (⟨Cert.KernelIdeal.S128x128, .f32⟩ : BufTy).Contents (Elt Ideal)) (x12 : (⟨Cert.KernelIdeal.S128, .f32⟩ : BufTy).Contents (Elt Ideal)) (x13 : (⟨Cert.KernelIdeal.S128x128, .f32⟩ : BufTy).Contents (Elt Ideal)) (x20 : (⟨Cert.KernelIdeal.S1600000, .i32⟩ : BufTy).Contents (Elt Ideal)) (x21 : (⟨Cert.KernelIdeal.S1600000, .i32⟩ : BufTy).Contents (Elt Ideal)) (x22 : (⟨Cert.KernelIdeal.S1600000, .i32⟩ : BufTy).Contents (Elt Ideal)) (x23 : (⟨Cert.KernelIdeal.S1600000, .i32⟩ : BufTy).Contents (Elt Ideal)) (x24 : (⟨Cert.KernelIdeal.S200000, .i32⟩ : BufTy).Contents (Elt Ideal)) : gatV (val_main_v105 (F := Ideal) x0 x1 x2 x3 x4 x5 x6 x7 x11 x12 x13 x20 x21 x22 x23) x24 = val_main_v112 (F := Ideal) x0 x1 x2 x3 x4 x5 x6 x7 x11 x12 x13 x20 x21 x22 x23 x24 := by
  unfold gatV
  rw [truncf_id]
  rfl
theorem gatH_eq (x0 : (⟨Cert.KernelIdeal.S100000x128, .f32⟩ : BufTy).Contents (Elt Ideal)) (x1 : (⟨Cert.KernelIdeal.S20000x128, .f32⟩ : BufTy).Contents (Elt Ideal)) (x2 : (⟨Cert.KernelIdeal.S128x128, .f32⟩ : BufTy).Contents (Elt Ideal)) (x3 : (⟨Cert.KernelIdeal.S128, .f32⟩ : BufTy).Contents (Elt Ideal)) (x4 : (⟨Cert.KernelIdeal.S128x128, .f32⟩ : BufTy).Contents (Elt Ideal)) (x5 : (⟨Cert.KernelIdeal.S128x128, .f32⟩ : BufTy).Contents (Elt Ideal)) (x6 : (⟨Cert.KernelIdeal.S128, .f32⟩ : BufTy).Contents (Elt Ideal)) (x7 : (⟨Cert.KernelIdeal.S128x128, .f32⟩ : BufTy).Contents (Elt Ideal)) (x8 : (⟨Cert.KernelIdeal.S128x128, .f32⟩ : BufTy).Contents (Elt Ideal)) (x9 : (⟨Cert.KernelIdeal.S128, .f32⟩ : BufTy).Contents (Elt Ideal)) (x10 : (⟨Cert.KernelIdeal.S128x128, .f32⟩ : BufTy).Contents (Elt Ideal)) (x20 : (⟨Cert.KernelIdeal.S1600000, .i32⟩ : BufTy).Contents (Elt Ideal)) (x21 : (⟨Cert.KernelIdeal.S1600000, .i32⟩ : BufTy).Contents (Elt Ideal)) (x22 : (⟨Cert.KernelIdeal.S1600000, .i32⟩ : BufTy).Contents (Elt Ideal)) (x23 : (⟨Cert.KernelIdeal.S1600000, .i32⟩ : BufTy).Contents (Elt Ideal)) (x25 : (⟨Cert.KernelIdeal.S200000, .i32⟩ : BufTy).Contents (Elt Ideal)) : gatH (val_main_v79 (F := Ideal) x0 x1 x2 x3 x4 x5 x6 x7 x8 x9 x10 x20 x21 x22 x23) x25 = val_main_v119 (F := Ideal) x0 x1 x2 x3 x4 x5 x6 x7 x8 x9 x10 x20 x21 x22 x23 x25 := by
  unfold gatH
  rw [truncf_id]
  rfl

variable (m : (ℓ : Loc Cert.KernelIdeal.nD Cert.KernelIdeal.τ Cert.KernelIdeal.sig) → Buf (Elt Ideal) ℓ) (c : Dev Cert.KernelIdeal.nD)

/-! ## The first layer -/

theorem H1_eq : H1 m c = val_main_v53 (F := Ideal) (ar0 m c) (ar1 m c) (ar2 m c) (ar3 m c) (ar4 m c) (ar20 m c) (ar21 m c) := by
  rw [layer0_host]
  unfold H1
  rw [invH_eq, Spec.gcMulArr_eq_gcDivArr, cntH_eq, totH_eq0]

theorem X1_eq : X1 m c = val_main_v52 (F := Ideal) (ar0 m c) (ar1 m c) (ar5 m c) (ar6 m c) (ar7 m c) (ar22 m c) (ar23 m c) := by
  rw [layer0_virus]
  unfold X1
  rw [invV_eq, Spec.gcMulArr_eq_gcDivArr, cntV_eq, totV_eq0]

/-! ## The second layer -/

theorem H2_eq : H2 m c = val_main_v79 (F := Ideal) (ar0 m c) (ar1 m c) (ar2 m c) (ar3 m c) (ar4 m c) (ar5 m c) (ar6 m c) (ar7 m c) (ar8 m c) (ar9 m c) (ar10 m c) (ar20 m c) (ar21 m c) (ar22 m c) (ar23 m c) := by
  rw [layer1_host]
  unfold H2
  rw [invH_eq, Spec.gcMulArr_eq_gcDivArr, cntH_eq', H1_eq, X1_eq, totH_eq1]

theorem X2_eq : X2 m c = val_main_v105 (F := Ideal) (ar0 m c) (ar1 m c) (ar2 m c) (ar3 m c) (ar4 m c) (ar5 m c) (ar6 m c) (ar7 m c) (ar11 m c) (ar12 m c) (ar13 m c) (ar20 m c) (ar21 m c) (ar22 m c) (ar23 m c) := by
  rw [layer1_virus]
  unfold X2
  rw [invV_eq, Spec.gcMulArr_eq_gcDivArr, cntV_eq', H1_eq, X1_eq, totV_eq1]

/-! ## The decoder -/

theorem OUT_eq : val_main_v138 (F := Ideal) (ar0 m c) (ar1 m c) (ar2 m c) (ar3 m c) (ar4 m c) (ar5 m c) (ar6 m c) (ar7 m c) (ar8 m c) (ar9 m c) (ar10 m c) (ar11 m c) (ar12 m c) (ar13 m c) (ar14 m c) (ar15 m c) (ar16 m c) (ar17 m c) (ar18 m c) (ar19 m c) (ar20 m c) (ar21 m c) (ar22 m c) (ar23 m c) (ar24 m c) (ar25 m c) = OUT m c := by
  rw [decoder]
  unfold OUT
  rw [X2_eq, H2_eq, gatV_eq, gatH_eq]

end Cert.Proof.Bridge

end
-- ==== Proof.lean ====
/-
  The certificate: the Pallas kernel (two GraphConv layers over a virus–host graph, then a link decoder) against its
  plain jnp reference, on the extended reals.

  The three frames. Each kernel program's frame is its generated frame certificate. The reference has no kernel: its
  frame is its run read back with the result dropped.

  The idealization rewrote nothing, so there is nothing to preserve.

  The algebraic claim. The kernel's run ends with its result buffer at `KVal.OUT` of the arguments: the decoder of the
  labelled rows of the second layer's features, each layer's features being the combine of the messages summed along
  the edges, the reciprocal clamped in-degrees and the previous features. The reference's run ends at its own composed
  term of the arguments. From memories that agree on the arguments the two terms are one function (`Bridge.OUT_eq`):
  the only difference is a product with 1 / max(degree, 1) against a quotient by max(degree, 1), which agree on every
  extended real because a degree clamped at one is not zero. No finiteness of the inputs is used.
-/
import proofs.«104036_j27625229648544_2_alg».proof.Defs
import proofs.«104036_j27625229648544_2_alg».proof.Proof.Gen.Kernel
import proofs.«104036_j27625229648544_2_alg».proof.Proof.Gen.Kernel.Skeleton
import proofs.«104036_j27625229648544_2_alg».proof.Proof.Gen.Kernel.Launch
import proofs.«104036_j27625229648544_2_alg».proof.Proof.Gen.Kernel.Points
import proofs.«104036_j27625229648544_2_alg».proof.Proof.Gen.Kernel.Frame
import proofs.«104036_j27625229648544_2_alg».proof.Proof.Gen.KernelIdeal
import proofs.«104036_j27625229648544_2_alg».proof.Proof.Gen.KernelIdeal.Skeleton
import proofs.«104036_j27625229648544_2_alg».proof.Proof.Gen.KernelIdeal.Launch
import proofs.«104036_j27625229648544_2_alg».proof.Proof.Gen.KernelIdeal.Points
import proofs.«104036_j27625229648544_2_alg».proof.Proof.Gen.KernelIdeal.Frame
import proofs.«104036_j27625229648544_2_alg».proof.Proof.Gen.ReferenceIdeal
import proofs.«104036_j27625229648544_2_alg».proof.Proof.Gen.ReferenceIdeal.Run
import proofs.«104036_j27625229648544_2_alg».proof.Proof.Gen.ReferenceIdeal.Read
import proofs.«104036_j27625229648544_2_alg».proof.Proof.Gen.Pre_finite_inputs
import proofs.«104036_j27625229648544_2_alg».proof.Proof.KValue
import proofs.«104036_j27625229648544_2_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end with equal results: the kernel's at `KVal.OUT` of its arguments, the reference's at its composed
    term of arguments that agree with the kernel's, and the two are one function. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.KVal.OUT m c, ?_, ?_⟩
  · exact (θ_run Cert.KernelIdeal.defs _ _).mono
      (fun r h c => ⟨(h c).1.trans (Cert.KernelIdeal.KVal.at11_v77 m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v138_eq]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2]
    exact Cert.Proof.Bridge.OUT_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
